-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S_ : Shape := ⟨0, ![]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel

variable [Facts]

def fn_part1 {F : FTy → Type} [FloatOps F] (main_v13 : IVec S_ 1) (main_v16 : IVec S16x2048x64 1) : IVec S_ 1 :=
  let main_c_5 : IVec S_ 1 := constantI S_ 1 1#1
  let main_v17 : IVec S_ 1 := (fun x v => Host.reduce IntOp.andi x v reducesTo_S16x2048x64_S_d0_1_2 h_S_) main_v16 main_c_5
  let main_v18 : IVec S_ 1 := andi main_v13 main_v17
  main_v18

def fn {F : FTy → Type} [FloatOps F] (main_arg0 : FVec F S16x2048x64 .f32) (main_arg1 : FVec F S16x2048x64 .f32) (main_arg2 : FVec F S16x2048x64 .f32) (main_arg3 : FVec F S16x2048x64 .f32) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S16x2048x64 .f32 := Host.absf main_arg1
  let main_cst_0 : FVec F S_ .f32 := constant S_ .f32 0x7F800000#32
  let main_v5 : FVec F S16x2048x64 .f32 := broadcastInDim S16x2048x64 ![] bcast_S_S16x2048x64 main_cst_0
  let main_v6 : IVec S16x2048x64 1 := cmpf .olt main_v4 main_v5
  let main_c_1 : IVec S_ 1 := constantI S_ 1 1#1
  let main_v7 : IVec S_ 1 := (fun x v => Host.reduce IntOp.andi x v reducesTo_S16x2048x64_S_d0_1_2 h_S_) main_v6 main_c_1
  let main_v8 : IVec S_ 1 := andi main_v3 main_v7
  let main_v9 : FVec F S16x2048x64 .f32 := Host.absf main_arg2
  let main_cst_2 : FVec F S_ .f32 := constant S_ .f32 0x7F800000#32
  let main_v10 : FVec F S16x2048x64 .f32 := broadcastInDim S16x2048x64 ![] bcast_S_S16x2048x64 main_cst_2
  let main_v11 : IVec S16x2048x64 1 := cmpf .olt main_v9 main_v10
  let main_c_3 : IVec S_ 1 := constantI S_ 1 1#1
  let main_v12 : IVec S_ 1 := (fun x v => Host.reduce IntOp.andi x v reducesTo_S16x2048x64_S_d0_1_2 h_S_) main_v11 main_c_3
  let main_v13 : IVec S_ 1 := andi main_v8 main_v12
  let main_v14 : FVec F S16x2048x64 .f32 := Host.absf main_arg3
  let main_cst_4 : FVec F S_ .f32 := constant S_ .f32 0x7F800000#32
  let main_v15 : FVec F S16x2048x64 .f32 := broadcastInDim S16x2048x64 ![] bcast_S_S16x2048x64 main_cst_4
  let main_v16 : IVec S16x2048x64 1 := cmpf .olt main_v14 main_v15
  fn_part1 (F := F) main_v13 main_v16
-- ==== Kernel.lean ====
abbrev S16x2048x64 : Shape := ⟨3, ![16, 2048, 64]⟩
abbrev S16x64x64 : Shape := ⟨3, ![16, 64, 64]⟩
abbrev S_ : Shape := ⟨0, ![]⟩
abbrev S16x2048x2048 : Shape := ⟨3, ![16, 2048, 2048]⟩
abbrev S1x512x64 : Shape := ⟨3, ![1, 512, 64]⟩
abbrev S1x64x64 : Shape := ⟨3, ![1, 64, 64]⟩
abbrev S1x2048x64 : Shape := ⟨3, ![1, 2048, 64]⟩
abbrev S1x512x2048 : Shape := ⟨3, ![1, 512, 2048]⟩
abbrev S512x64 : Shape := ⟨2, ![512, 64]⟩
abbrev S64x64 : Shape := ⟨2, ![64, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 11
  | .vmem => 12
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x64, .f32⟩
  | .hbm, ⟨4, _⟩ => ⟨S16x64x64, .f32⟩
  | .hbm, ⟨5, _⟩ => ⟨S_, .f32⟩
  | .hbm, ⟨6, _⟩ => ⟨S16x64x64, .f32⟩
  | .hbm, ⟨7, _⟩ => ⟨S16x64x64, .f32⟩
  | .hbm, ⟨8, _⟩ => ⟨S16x2048x64, .bf16⟩
  | .hbm, ⟨9, _⟩ => ⟨S16x2048x64, .f32⟩
  | .hbm, ⟨10, _⟩ => ⟨S16x2048x2048, .f32⟩
  | .local _ .vmem, ⟨0, _⟩ => ⟨S1x512x64, .f32⟩
  | .local _ .vmem, ⟨1, _⟩ => ⟨S1x512x64, .f32⟩
  | .local _ .vmem, ⟨2, _⟩ => ⟨S1x64x64, .f32⟩
  | .local _ .vmem, ⟨3, _⟩ => ⟨S1x64x64, .f32⟩
  | .local _ .vmem, ⟨4, _⟩ => ⟨S1x2048x64, .f32⟩
  | .local _ .vmem, ⟨5, _⟩ => ⟨S1x2048x64, .f32⟩
  | .local _ .vmem, ⟨6, _⟩ => ⟨S1x2048x64, .bf16⟩
  | .local _ .vmem, ⟨7, _⟩ => ⟨S1x2048x64, .bf16⟩
  | .local _ .vmem, ⟨8, _⟩ => ⟨S1x512x64, .f32⟩
  | .local _ .vmem, ⟨9, _⟩ => ⟨S1x512x64, .f32⟩
  | .local _ .vmem, ⟨10, _⟩ => ⟨S1x512x2048, .f32⟩
  | .local _ .vmem, ⟨11, _⟩ => ⟨S1x512x2048, .f32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S16x64x64 : S_.BroadcastsInDim S16x64x64 (![] : Fin 0 → Fin S16x64x64.rank)
  bitsLt_bf16_f32 : FTy.bits .bf16 < FTy.bits .f32
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S512x2048_S512 : S512x2048.Reduces [1] S512
  shapeCasts_S512_S512x1 : S512.ShapeCasts S512x1
  broadcasts_S512x1_S512x2048 : S512x1.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  shapeCasts_S512x64_S1x512x64 : S512x64.ShapeCasts S1x512x64
  dot_S16x2048x64_S16x2048x64_S16x64x64_1_1_2_2_0_0_wf : DotDims.WF S16x2048x64 S16x2048x64 S16x64x64 [1] [1] [2] [2] [0] [0]
  dot_S512x64_S64x64_S512x64_1_0_0_1_n_n_wf : DotDims.WF S512x64 S64x64 S512x64 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S16x2048x64.size a
  hwx0_0 : ∀ i : grid0.Coords, EltTy.bits .f32 = 32 ∨ (Rect.block (s := S16x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S16x64x64.size a
  hwx0_1 : ∀ i : grid0.Coords, EltTy.bits .f32 = 32 ∨ (Rect.block (s := S16x64x64) S1x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S16x2048x64.size a
  hwx0_2 : ∀ i : grid0.Coords, EltTy.bits .f32 = 32 ∨ (Rect.block (s := S16x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x64.size a ≤ S16x2048x64.size a
  hwx0_3 : ∀ i : grid0.Coords, EltTy.bits .bf16 = 32 ∨ (Rect.block (s := S16x2048x64) S1x2048x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x64.size a ≤ S16x2048x64.size a
  hwx0_4 : ∀ i : grid0.Coords, EltTy.bits .f32 = 32 ∨ (Rect.block (s := S16x2048x64) S1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2048.size a ≤ S16x2048x2048.size a
  hwx0_5 : ∀ i : grid0.Coords, EltTy.bits .f32 = 32 ∨ (Rect.block (s := S16x2048x2048) S1x512x2048.size (cc0_transform_5 i) (hinb0_5 i)).WholeWords (EltTy.packing .f32)

variable [Facts₀]

def dot_S16x2048x64_S16x2048x64_S16x64x64_1_1_2_2_0_0 : DotDims S16x2048x64 S16x2048x64 S16x64x64 where
  lhsContracting := [1]
  rhsContracting := [1]
  lhsNonContracting := [2]
  rhsNonContracting := [2]
  lhsBatch := [0]
  rhsBatch := [0]
  wf := dot_S16x2048x64_S16x2048x64_S16x64x64_1_1_2_2_0_0_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x2048x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x2048x64 : Shape := ⟨3, ![16, 2048, 64]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 28
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x64, .f32⟩
  | .hbm, ⟨4, _⟩ => ⟨S16x2048x2048, .f32⟩
  | .hbm, ⟨5, _⟩ => ⟨S_, .f32⟩
  | .hbm, ⟨6, _⟩ => ⟨S16x2048x2048, .f32⟩
  | .hbm, ⟨7, _⟩ => ⟨S16x2048x2048, .f32⟩
  | .hbm, ⟨8, _⟩ => ⟨S16x2048x2048, .f32⟩
  | .hbm, ⟨9, _⟩ => ⟨S_, .f32⟩
  | .hbm, ⟨10, _⟩ => ⟨S16x2048x2048, .f32⟩
  | .hbm, ⟨11, _⟩ => ⟨S16x2048x2048, .f32⟩
  | .hbm, ⟨12, _⟩ => ⟨S16x2048x2048, .f32⟩
  | .hbm, ⟨13, _⟩ => ⟨S_, .f32⟩
  | .hbm, ⟨14, _⟩ => ⟨S16x2048, .f32⟩
  | .hbm, ⟨15, _⟩ => ⟨S_, .f32⟩
  | .hbm, ⟨16, _⟩ => ⟨S16x2048, .f32⟩
  | .hbm, ⟨17, _⟩ => ⟨S16x2048, .f32⟩
  | .hbm, ⟨18, _⟩ => ⟨S16x2048x1, .f32⟩
  | .hbm, ⟨19, _⟩ => ⟨S16x2048x2048, .f32⟩
  | .hbm, ⟨20, _⟩ => ⟨S16x2048x2048, .f32⟩
  | .hbm, ⟨21, _⟩ => ⟨S16x2048x2048, .f32⟩
  | .hbm, ⟨22, _⟩ => ⟨S_, .f32⟩
  | .hbm, ⟨23, _⟩ => ⟨S16x2048, .f32⟩
  | .hbm, ⟨24, _⟩ => ⟨S16x2048x1, .f32⟩
  | .hbm, ⟨25, _⟩ => ⟨S16x2048x2048, .f32⟩
  | .hbm, ⟨26, _⟩ => ⟨S16x2048x2048, .f32⟩
  | .hbm, ⟨27, _⟩ => ⟨S16x2048x64, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x64_S16x2048x64_S16x2048x2048_2_2_1_1_0_0_wf : DotDims.WF S16x2048x64 S16x2048x64 S16x2048x2048 [2] [2] [1] [1] [0] [0]
  dot_S16x2048x2048_S16x2048x2048_S16x2048x2048_2_1_1_2_0_0_wf : DotDims.WF S16x2048x2048 S16x2048x2048 S16x2048x2048 [2] [1] [1] [2] [0] [0]
  dot_S16x2048x2048_S16x2048x64_S16x2048x64_2_1_1_2_0_0_wf : DotDims.WF S16x2048x2048 S16x2048x64 S16x2048x64 [2] [1] [1] [2] [0] [0]

variable [Facts₀]

def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x2048x2048_S16x2048x2048_S16x2048x2048_2_1_1_2_0_0 : DotDims S16x2048x2048 S16x2048x2048 S16x2048x2048 where
  lhsContracting := [2]
  rhsContracting := [1]
  lhsNonContracting := [1]
  rhsNonContracting := [2]
  lhsBatch := [0]
  rhsBatch := [0]
  wf := dot_S16x2048x2048_S16x2048x2048_S16x2048x2048_2_1_1_2_0_0_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.Found.lean ====
/-
  What one grid point leaves in the two output buffers, as functions of the four input blocks.

  The body stores the tile of attention weights (a function of the query block, the scaled `kᵀ q` block and the
  position block) into the weights buffer, reads that buffer back, multiplies what it read by the value block and
  stores the product into the output buffer. Each buffer is written by one store that covers it, so the weights
  buffer holds the weights tile and the output buffer holds the product formed FROM that same tile: the read-back
  sees exactly what was just stored.
-/
import proofs.«174084_j34849364639933_2_alg».proof.Proof.Gen.KernelIdeal.Frame
import Idealize.ShloMosaic.Lib.Pipeline.Value

set_option maxRecDepth 16384

noncomputable section

namespace Cert.KernelIdeal.Found

open Cert.KernelIdeal Cert.KernelIdeal.Gen
open Idealize.ShloMosaic Idealize.ShloMosaic.TcCoe Idealize.ShloMosaic.Tactic Idealize.SL.Sem

variable {F : FTy → Type} [FloatOps F]

/-- The offset of a store or load that starts at the origin of a rank-3 buffer. -/
theorem origin3 : (![0, 0, 0] : Fin 3 → Nat) = fun _ => 0 := funext fun a => by fin_cases a <;> rfl

/-- The weights buffer ends holding the weights tile of the three blocks the tile is computed from. -/
theorem weights_buffer (c : Dev nD) (i : grid0.Coords) (arg2 : Memref sig .tc .vmem S1x512x64 .f32) (harg2 : arg2.IsWhole) (arg3 : Memref sig .tc .vmem S1x64x64 .f32) (harg3 : arg3.IsWhole) (arg4 : Memref sig .tc .vmem S1x2048x64 .f32) (harg4 : arg4.IsWhole) (arg5 : Memref sig .tc .vmem S1x2048x64 .bf16) (harg5 : arg5.IsWhole) (arg6 : Memref sig .tc .vmem S1x512x64 .f32) (harg6 : arg6.IsWhole) (arg7 : Memref sig .tc .vmem S1x512x2048 .f32) (harg7 : arg7.IsWhole)
    (x0 : Vec F S1x512x64 .f32) (x1 : Vec F S1x64x64 .f32) (x2 : Vec F S1x2048x64 .f32) (x3 : Vec F S1x2048x64 .bf16) :
    out0_A_5 c i arg2 harg2 arg3 harg3 arg4 harg4 arg5 harg5 arg6 harg6 arg7 harg7 x0 x1 x2 x3 = k0_pay1 x0 x1 x2 := by
  unfold out0_A_5
  rw [View.read_writes_eq_canon _ _ _ (cover0_A_5 c i arg2 harg2 arg3 harg3 arg4 harg4 arg5 harg5 arg6 harg6 arg7 harg7 x0 x1 x2 x3)]
  unfold kernelRun0_A
  dsimp only
  sl_unfold_words
  rw [View.canon_unit_zero origin3]
  simp only [View.readAt_eq_ld, harg2.read_unread, harg3.read_unread, harg4.read_unread,
    View.ld_unit_zero (S := S1x512x64) origin3, View.ld_unit_zero (S := S1x64x64) origin3,
    View.ld_unit_zero (S := S1x2048x64) origin3]

/-- The output buffer ends holding the product of the weights tile, as read back from the weights buffer, with the
    value block. -/
theorem output_buffer (c : Dev nD) (i : grid0.Coords) (arg2 : Memref sig .tc .vmem S1x512x64 .f32) (harg2 : arg2.IsWhole) (arg3 : Memref sig .tc .vmem S1x64x64 .f32) (harg3 : arg3.IsWhole) (arg4 : Memref sig .tc .vmem S1x2048x64 .f32) (harg4 : arg4.IsWhole) (arg5 : Memref sig .tc .vmem S1x2048x64 .bf16) (harg5 : arg5.IsWhole) (arg6 : Memref sig .tc .vmem S1x512x64 .f32) (harg6 : arg6.IsWhole) (arg7 : Memref sig .tc .vmem S1x512x2048 .f32) (harg7 : arg7.IsWhole)
    (x0 : Vec F S1x512x64 .f32) (x1 : Vec F S1x64x64 .f32) (x2 : Vec F S1x2048x64 .f32) (x3 : Vec F S1x2048x64 .bf16) :
    out0_A_4 c i arg2 harg2 arg3 harg3 arg4 harg4 arg5 harg5 arg6 harg6 arg7 harg7 x0 x1 x2 x3 = k0_pay2 x3 (k0_pay1 x0 x1 x2) := by
  unfold out0_A_4
  rw [View.read_writes_eq_canon _ _ _ (cover0_A_4 c i arg2 harg2 arg3 harg3 arg4 harg4 arg5 harg5 arg6 harg6 arg7 harg7 x0 x1 x2 x3)]
  unfold kernelRun0_A
  dsimp only
  sl_unfold_words
  rw [View.canon_unit_zero origin3, View.readCov_unit_zero (S := S1x512x2048) _ origin3]
  simp only [View.readAt_eq_ld, harg2.read_unread, harg3.read_unread, harg4.read_unread, harg5.read_unread,
    View.ld_unit_zero (S := S1x512x64) origin3, View.ld_unit_zero (S := S1x64x64) origin3,
    View.ld_unit_zero (S := S1x2048x64) origin3]

end Cert.KernelIdeal.Found

end
-- ==== Proof.MixedAttention.lean ====
/-
  The mathematics both programs compute, stated once over the extended reals.

  For a batch `b`, with `q`, `k`, `v`, `pos` of shape [16, 2048, 64], the LOGITS at query row `r` and column `p` are
  the entry of the product of two 2048 × 2048 matrices, each divided by the temperature 8:
      logits[b, r, p] = ∑ l, (∑ d, q[b,r,d] · k[b,l,d]) / 8 · (∑ e, q[b,l,e] · pos[b,p,e]) / 8.
  The same number in FACTORED form goes through the small 64 × 64 matrix `kᵀ q`, scaled once by 1/64:
      factored[b, r, p] = ∑ e, (∑ d, q[b,r,d] · ((∑ l, k[b,l,d] · q[b,l,e]) · (1/64))) · pos[b,p,e].
  The two agree when every entry is a real number (the triple sum may be taken in any order and the scale moved
  across it); at an infinite entry they need not, which is where finiteness of the inputs is used.

  Each row of logits is then turned into WEIGHTS by the softmax taken with the row maximum subtracted,
      weights[b, r, p] = exp (x p - max x) / ∑ p', exp (x p' - max x),     x = logits[b, r, ·],
  and the OUTPUT is the weighted sum of the rows of `v`: out[b, r, d] = ∑ l, weights[b, r, l] · v[b, l, d].
-/
import Idealize.ShloMosaic.PureOps.Ideal
import Idealize.ShloMosaic.Lib.ValueIdx

noncomputable section

namespace Cert.Attn

open Idealize.ShloMosaic Idealize.ShloMosaic.ValueIdx

/-- An argument array: [16, 2048, 64] extended reals. -/
abbrev Arr : Type := (⟨3, ![16, 2048, 64]⟩ : Shape).Idx → EReal
/-- The square array of weights: [16, 2048, 2048]. -/
abbrev Sq : Type := (⟨3, ![16, 2048, 2048]⟩ : Shape).Idx → EReal

/-- The temperature, the scale and the start of a maximum, as the programs spell them. -/
abbrev eight : EReal := Ideal.ofBits .f32 0x41000000#32
abbrev inv64 : EReal := Ideal.ofBits .f32 0x3C800000#32
abbrev negInf : EReal := Ideal.ofBits .f32 0xFF800000#32

/-- The logits of batch `b`, query row `r`, as a row over the columns `p`: the product of the two
    temperature-scaled score matrices. -/
def logits (q k pos : Arr) (b : Fin 16) (r : Fin 2048) : Fin 2048 → EReal := fun p =>
  ∑ l : Fin 2048, Ideal.div (∑ d : Fin 64, q (ix3 b r d) * k (ix3 b l d)) eight
    * Ideal.div (∑ e : Fin 64, q (ix3 b l e) * pos (ix3 b p e)) eight

/-- The same row in factored form: through the 64 × 64 matrix `kᵀ q`, scaled once. -/
def factored (q k pos : Arr) (b : Fin 16) (r : Fin 2048) : Fin 2048 → EReal := fun p =>
  ∑ e : Fin 64, (∑ d : Fin 64, q (ix3 b r d) * ((∑ l : Fin 2048, k (ix3 b l d) * q (ix3 b l e)) * inv64)) * pos (ix3 b p e)

/-- The maximum of a row, started from negative infinity. -/
def rowMax {n : ℕ} (x : Fin n → EReal) : EReal := (Finset.univ : Finset (Fin n)).fold max negInf x

/-- The softmax of a row, taken with the row maximum subtracted. -/
def soft {n : ℕ} (x : Fin n → EReal) : Fin n → EReal := fun p =>
  Ideal.div (Ideal.exp (x p - rowMax x)) (∑ p' : Fin n, Ideal.exp (x p' - rowMax x))

/-- The weights: the softmax of every row of logits. -/
def weights (q k pos : Arr) : Sq := fun i => soft (logits q k pos (i 0) (i 1)) (i 2)

/-- The weights computed from the factored logits. -/
def weightsF (q k pos : Arr) : Sq := fun i => soft (factored q k pos (i 0) (i 1)) (i 2)

/-- The weighted sum of the rows of `v`, for any square array of weights. -/
def mix (w : Sq) (v : Arr) : Arr := fun i => ∑ l : Fin 2048, w (ix3 (i 0) (i 1) l) * v (ix3 (i 0) l (i 2))

end Cert.Attn

end
-- ==== Proof.LibKeepdims.lean ====
/-
  Layout operations of a `sum(..., keepdims=True)` read at an index written by coordinates.

  A row sum kept as a column is a vector of extent `a` cast to shape `[a, 1]`; a column used against a matrix is
  `[a, 1]` broadcast to `[a, b]`; a total kept as a `[1, 1]` block is a vector of extent `1` cast to `[1, 1]`.
  Each reads its operand at the evident coordinate: the cast keeps the row-major position, the broadcast repeats the
  one column.
-/
import Idealize.ShloMosaic.Lib.Pipeline.Value
import Idealize.ShloMosaic.Lib.ValueIdx

namespace Cert.LibKeepdims

open Idealize.ShloMosaic Idealize.ShloMosaic.ValueIdx

variable {α : Type}

/-- A vector of extent `a` cast to the column shape `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, q)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector of extent `1` cast to the block shape `[1, 1]` reads its one element, wherever it is read. -/
theorem shapeCast_1_11_apply (x : (⟨1, ![1]⟩ : Shape).Idx → α) (h : (⟨1, ![1]⟩ : Shape).ShapeCasts ⟨2, ![1, 1]⟩)
    (y : (⟨2, ![1, 1]⟩ : Shape).Idx) : shapeCast ⟨2, ![1, 1]⟩ x h y = x (ix1 (0 : Fin 1)) :=
  shapeCast_apply x h _ _ (by
    have h0 : (y 0).val < 1 := idx2_lt0 y
    have h1 : (y 1).val < 1 := idx2_lt1 y
    rw [Shape.rowMajor_val_two, Shape.rowMajor_val_one]
    show (0 : ℕ) = (y 0).val * 1 + (y 1).val
    omega)

/-- The `[1, 1]` block has one index. -/
theorem idx11_eq (y y' : (⟨2, ![1, 1]⟩ : Shape).Idx) : y = y' := by
  funext d
  apply Fin.ext
  match d with
  | ⟨0, _⟩ => show (y 0).val = (y' 0).val; have := idx2_lt0 y; have := idx2_lt0 y'; omega
  | ⟨1, _⟩ => show (y 1).val = (y' 1).val; have := idx2_lt1 y; have := idx2_lt1 y'; omega

end Cert.LibKeepdims
-- ==== Proof.Tile.lean ====
/-
  The arithmetic of one grid point, read index by index at the extended reals.

  From a query block `Q` [1, 512, 64], a scaled-product block `M` [1, 64, 64] and a position block `P` [1, 2048, 64] the body
  forms the 512 × 2048 matrix of logits `X = (Q M) Pᵀ`,
      X[r, p] = ∑ e, (∑ d, Q[r, d] · M[d, e]) · P[p, e],
  and the weights tile is the softmax of each of its rows, the row maximum subtracted first. From the weights tile `W`
  [1, 512, 2048] and a value block `U` [1, 2048, 64] it forms the output tile `W U`: ∑ l, W[r, l] · U[l, d].
  A change of float format is the identity here, a matrix product into a zero accumulator is the plain sum of
  products over the contracted axis, and a lane reduction is the maximum or the sum over the row.
-/
import proofs.«174084_j34849364639933_2_alg».proof.Proof.Gen.KernelIdeal.Skeleton
import proofs.«174084_j34849364639933_2_alg».proof.Proof.MixedAttention
import proofs.«174084_j34849364639933_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Tile

open Cert.KernelIdeal Cert.KernelIdeal.Gen
open Idealize.ShloMosaic Idealize.ShloMosaic.ValueIdx

/-! ## The three matrix products -/

/-- Coordinates of the operands' indices in `dot_S512x64_S64x64_S512x64_1_0_0_1_n_n`. -/
theorem qm_lhs_kept (j : S512x64.Idx) (k : dot_S512x64_S64x64_S512x64_1_0_0_1_n_n.contr.Idx) : (dot_S512x64_S64x64_S512x64_1_0_0_1_n_n.lhsIdx j k 0).val = (j 0).val := by
  unfold DotDims.lhsIdx
  rw [dif_neg (show ¬(0 : Fin S512x64.rank) ∈ dot_S512x64_S64x64_S512x64_1_0_0_1_n_n.lhsBatch by decide), dif_pos (show (0 : Fin S512x64.rank) ∈ dot_S512x64_S64x64_S512x64_1_0_0_1_n_n.lhsNonContracting by decide)]
  rfl
theorem qm_lhs_summed (j : S512x64.Idx) (k : dot_S512x64_S64x64_S512x64_1_0_0_1_n_n.contr.Idx) : (dot_S512x64_S64x64_S512x64_1_0_0_1_n_n.lhsIdx j k 1).val = (k ⟨0, by decide⟩).val :=
  dot_S512x64_S64x64_S512x64_1_0_0_1_n_n.lhsIdx_val_of_single rfl j k
theorem qm_rhs_kept (j : S512x64.Idx) (k : dot_S512x64_S64x64_S512x64_1_0_0_1_n_n.contr.Idx) : (dot_S512x64_S64x64_S512x64_1_0_0_1_n_n.rhsIdx j k 1).val = (j 1).val := by
  unfold DotDims.rhsIdx
  rw [dif_neg (show ¬(1 : Fin S64x64.rank) ∈ dot_S512x64_S64x64_S512x64_1_0_0_1_n_n.rhsBatch by decide), dif_pos (show (1 : Fin S64x64.rank) ∈ dot_S512x64_S64x64_S512x64_1_0_0_1_n_n.rhsNonContracting by decide)]
  rfl
theorem qm_rhs_summed (j : S512x64.Idx) (k : dot_S512x64_S64x64_S512x64_1_0_0_1_n_n.contr.Idx) : (dot_S512x64_S64x64_S512x64_1_0_0_1_n_n.rhsIdx j k 0).val = (k ⟨0, by decide⟩).val :=
  dot_S512x64_S64x64_S512x64_1_0_0_1_n_n.rhsIdx_val_of_single rfl j k

/-- `A B` for `A` of 512 × 64 and `B` of 64 × 64: the sum over the shared axis. -/
theorem product_QM (A : FVec Ideal S512x64 .bf16) (B : FVec Ideal S64x64 .bf16) (r : Fin 512) (c : Fin 64) :
    matmul dot_S512x64_S64x64_S512x64_1_0_0_1_n_n none A B (constant S512x64 .f32 0x00000000#32) (ix2 r c)
      = ∑ k : Fin 64, A (ix2 r k) * B (ix2 k c) := by
  refine (Ideal.matmul_constant_zero_apply dot_S512x64_S64x64_S512x64_1_0_0_1_n_n none A B (ix2 r c)).trans ?_
  rw [← Equiv.sum_comp (contrEquiv1 dot_S512x64_S64x64_S512x64_1_0_0_1_n_n 64 rfl rfl).symm]
  refine Finset.sum_congr rfl fun k _ => ?_
  have hk := contrEquiv1_symm_val dot_S512x64_S64x64_S512x64_1_0_0_1_n_n 64 rfl rfl k
  have el : dot_S512x64_S64x64_S512x64_1_0_0_1_n_n.lhsIdx (ix2 r c) ((contrEquiv1 dot_S512x64_S64x64_S512x64_1_0_0_1_n_n 64 rfl rfl).symm k) = ix2 r k :=
    funext fun a => Fin.ext (by
      match a with
      | ⟨0, _⟩ => exact qm_lhs_kept _ _
      | ⟨1, _⟩ => exact (qm_lhs_summed _ _).trans hk)
  have er : dot_S512x64_S64x64_S512x64_1_0_0_1_n_n.rhsIdx (ix2 r c) ((contrEquiv1 dot_S512x64_S64x64_S512x64_1_0_0_1_n_n 64 rfl rfl).symm k) = ix2 k c :=
    funext fun a => Fin.ext (by
      match a with
      | ⟨1, _⟩ => exact qm_rhs_kept _ _
      | ⟨0, _⟩ => exact (qm_rhs_summed _ _).trans hk)
  rw [el, er]

/-- Coordinates of the operands' indices in `dot_S512x64_S2048x64_S512x2048_1_1_0_0_n_n`. -/
theorem xp_lhs_kept (j : S512x2048.Idx) (k : dot_S512x64_S2048x64_S512x2048_1_1_0_0_n_n.contr.Idx) : (dot_S512x64_S2048x64_S512x2048_1_1_0_0_n_n.lhsIdx j k 0).val = (j 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem xp_lhs_summed (j : S512x2048.Idx) (k : dot_S512x64_S2048x64_S512x2048_1_1_0_0_n_n.contr.Idx) : (dot_S512x64_S2048x64_S512x2048_1_1_0_0_n_n.lhsIdx j k 1).val = (k ⟨0, by decide⟩).val :=
  dot_S512x64_S2048x64_S512x2048_1_1_0_0_n_n.lhsIdx_val_of_single rfl j k
theorem xp_rhs_kept (j : S512x2048.Idx) (k : dot_S512x64_S2048x64_S512x2048_1_1_0_0_n_n.contr.Idx) : (dot_S512x64_S2048x64_S512x2048_1_1_0_0_n_n.rhsIdx j k 0).val = (j 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem xp_rhs_summed (j : S512x2048.Idx) (k : dot_S512x64_S2048x64_S512x2048_1_1_0_0_n_n.contr.Idx) : (dot_S512x64_S2048x64_S512x2048_1_1_0_0_n_n.rhsIdx j k 1).val = (k ⟨0, by decide⟩).val :=
  dot_S512x64_S2048x64_S512x2048_1_1_0_0_n_n.rhsIdx_val_of_single rfl j k

/-- `A Bᵀ` for `A` of 512 × 64 and `B` of 2048 × 64: both operands are summed over their second axis. -/
theorem product_XPt (A : FVec Ideal S512x64 .f32) (B : FVec Ideal S2048x64 .f32) (r : Fin 512) (c : Fin 2048) :
    matmul dot_S512x64_S2048x64_S512x2048_1_1_0_0_n_n (some .fp32) A B (constant S512x2048 .f32 0x00000000#32) (ix2 r c)
      = ∑ k : Fin 64, A (ix2 r k) * B (ix2 c k) := by
  refine (Ideal.matmul_constant_zero_apply dot_S512x64_S2048x64_S512x2048_1_1_0_0_n_n (some .fp32) A B (ix2 r c)).trans ?_
  rw [← Equiv.sum_comp (contrEquiv1 dot_S512x64_S2048x64_S512x2048_1_1_0_0_n_n 64 rfl rfl).symm]
  refine Finset.sum_congr rfl fun k _ => ?_
  have hk := contrEquiv1_symm_val dot_S512x64_S2048x64_S512x2048_1_1_0_0_n_n 64 rfl rfl k
  have el : dot_S512x64_S2048x64_S512x2048_1_1_0_0_n_n.lhsIdx (ix2 r c) ((contrEquiv1 dot_S512x64_S2048x64_S512x2048_1_1_0_0_n_n 64 rfl rfl).symm k) = ix2 r k :=
    funext fun a => Fin.ext (by
      match a with
      | ⟨0, _⟩ => exact xp_lhs_kept _ _
      | ⟨1, _⟩ => exact (xp_lhs_summed _ _).trans hk)
  have er : dot_S512x64_S2048x64_S512x2048_1_1_0_0_n_n.rhsIdx (ix2 r c) ((contrEquiv1 dot_S512x64_S2048x64_S512x2048_1_1_0_0_n_n 64 rfl rfl).symm k) = ix2 c k :=
    funext fun a => Fin.ext (by
      match a with
      | ⟨0, _⟩ => exact xp_rhs_kept _ _
      | ⟨1, _⟩ => exact (xp_rhs_summed _ _).trans hk)
  rw [el, er]

/-- Coordinates of the operands' indices in `dot_S512x2048_S2048x64_S512x64_1_0_0_1_n_n`. -/
theorem wu_lhs_kept (j : S512x64.Idx) (k : dot_S512x2048_S2048x64_S512x64_1_0_0_1_n_n.contr.Idx) : (dot_S512x2048_S2048x64_S512x64_1_0_0_1_n_n.lhsIdx j k 0).val = (j 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem wu_lhs_summed (j : S512x64.Idx) (k : dot_S512x2048_S2048x64_S512x64_1_0_0_1_n_n.contr.Idx) : (dot_S512x2048_S2048x64_S512x64_1_0_0_1_n_n.lhsIdx j k 1).val = (k ⟨0, by decide⟩).val :=
  dot_S512x2048_S2048x64_S512x64_1_0_0_1_n_n.lhsIdx_val_of_single rfl j k
theorem wu_rhs_kept (j : S512x64.Idx) (k : dot_S512x2048_S2048x64_S512x64_1_0_0_1_n_n.contr.Idx) : (dot_S512x2048_S2048x64_S512x64_1_0_0_1_n_n.rhsIdx j k 1).val = (j 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl
theorem wu_rhs_summed (j : S512x64.Idx) (k : dot_S512x2048_S2048x64_S512x64_1_0_0_1_n_n.contr.Idx) : (dot_S512x2048_S2048x64_S512x64_1_0_0_1_n_n.rhsIdx j k 0).val = (k ⟨0, by decide⟩).val :=
  dot_S512x2048_S2048x64_S512x64_1_0_0_1_n_n.rhsIdx_val_of_single rfl j k

/-- `A B` for `A` of 512 × 2048 and `B` of 2048 × 64: the sum over the 2048 shared rows. -/
theorem product_WU (A : FVec Ideal S512x2048 .bf16) (B : FVec Ideal S2048x64 .bf16) (r : Fin 512) (c : Fin 64) :
    matmul dot_S512x2048_S2048x64_S512x64_1_0_0_1_n_n none A B (constant S512x64 .f32 0x00000000#32) (ix2 r c)
      = ∑ k : Fin 2048, A (ix2 r k) * B (ix2 k c) := by
  refine (Ideal.matmul_constant_zero_apply dot_S512x2048_S2048x64_S512x64_1_0_0_1_n_n none A B (ix2 r c)).trans ?_
  rw [← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 r c) ((contrEquiv1 dot_S512x2048_S2048x64_S512x64_1_0_0_1_n_n 2048 rfl rfl).symm k) = ix2 r k :=
    funext fun a => Fin.ext (by
      match a with
      | ⟨0, _⟩ => exact wu_lhs_kept _ _
      | ⟨1, _⟩ => exact (wu_lhs_summed _ _).trans hk)
  have er : dot_S512x2048_S2048x64_S512x64_1_0_0_1_n_n.rhsIdx (ix2 r c) ((contrEquiv1 dot_S512x2048_S2048x64_S512x64_1_0_0_1_n_n 2048 rfl rfl).symm k) = ix2 k c :=
    funext fun a => Fin.ext (by
      match a with
      | ⟨1, _⟩ => exact wu_rhs_kept _ _
      | ⟨0, _⟩ => exact (wu_rhs_summed _ _).trans hk)
  rw [el, er]

/-! ## A row's maximum and sum -/

/-- Row `r` of a 512 × 2048 matrix, entered at column `c`. -/
theorem row_index (r : Fin 512) (c : Fin 2048) : reduces_S512x2048_S512.lift (ix1 r) c = ix2 r c :=
  funext fun a => Fin.ext (by match a with | ⟨0, _⟩ => rfl | ⟨1, _⟩ => rfl)

/-- The lane maximum of row `r`, started from negative infinity, is the maximum of the row. -/
theorem row_maximum (X : FVec Ideal S512x2048 .f32) (r : Fin 512) :
    multiReduction .maximumf [1] S512 X 0xFF800000#32 reduces_S512x2048_S512 (.inl rfl) rfl (ix1 r)
      = Attn.rowMax (fun c : Fin 2048 => X (ix2 r c)) := by
  refine (Ideal.multiReduction_maximumf_single X 0xFF800000#32 reduces_S512x2048_S512 (.inl rfl) rfl (ix1 r)).trans ?_
  have e : (X ∘ reduces_S512x2048_S512.lift (ix1 r)) = fun c : Fin 2048 => X (ix2 r c) :=
    funext fun c => congrArg X (row_index r c)
  rw [e]
  rfl

/-- The lane sum of row `r` is the sum of the row. -/
theorem row_sum (Y : FVec Ideal S512x2048 .f32) (r : Fin 512) :
    multiReduction .add [1] S512 Y 0x00000000#32 reduces_S512x2048_S512 (.inl rfl) rfl (ix1 r)
      = ∑ c : Fin 2048, Y (ix2 r c) := by
  refine (Ideal.multiReduction_add_single Y 0x00000000#32 reduces_S512x2048_S512 (.inl rfl) rfl (ix1 r)).trans ?_
  exact Finset.sum_congr rfl fun c _ => congrArg Y (row_index r c)

/-! ## The softmax of every row -/

/-- Each row's maximum, kept as a column and spread back over the row. -/
def spreadMax (X : FVec Ideal S512x2048 .f32) : FVec Ideal S512x2048 .f32 :=
  broadcastTo S512x2048 (shapeCast S512x1 (multiReduction .maximumf [1] S512 X 0xFF800000#32 reduces_S512x2048_S512 (.inl rfl) rfl) shapeCasts_S512_S512x1) broadcasts_S512x1_S512x2048

theorem spreadMax_apply (X : FVec Ideal S512x2048 .f32) (r : Fin 512) (c : Fin 2048) :
    spreadMax X (ix2 r c) = Attn.rowMax (fun c : Fin 2048 => X (ix2 r c)) :=
  (LibKeepdims.broadcastTo_a1_ab_apply _ _ r c).trans ((LibKeepdims.shapeCast_a_a1_apply _ _ r 0).trans (row_maximum X r))

/-- Each row's sum, kept as a column and spread back over the row. -/
def spreadSum (Y : FVec Ideal S512x2048 .f32) : FVec Ideal S512x2048 .f32 :=
  broadcastTo S512x2048 (shapeCast S512x1 (multiReduction .add [1] S512 Y 0x00000000#32 reduces_S512x2048_S512 (.inl rfl) rfl) shapeCasts_S512_S512x1) broadcasts_S512x1_S512x2048

theorem spreadSum_apply (Y : FVec Ideal S512x2048 .f32) (r : Fin 512) (c : Fin 2048) :
    spreadSum Y (ix2 r c) = ∑ c' : Fin 2048, Y (ix2 r c') :=
  (LibKeepdims.broadcastTo_a1_ab_apply _ _ r c).trans ((LibKeepdims.shapeCast_a_a1_apply _ _ r 0).trans (row_sum Y r))

/-- The exponentials of a matrix's entries less their row's maximum, each divided by its row's sum of them. -/
def softRows (X : FVec Ideal S512x2048 .f32) : FVec Ideal S512x2048 .f32 :=
  divf (exp (subf X (spreadMax X))) (spreadSum (exp (subf X (spreadMax X))))

/-- Entry (r, p) of that matrix is the softmax of row `r` at `p`. -/
theorem softRows_apply (X : FVec Ideal S512x2048 .f32) (r : Fin 512) (p : Fin 2048) :
    softRows X (ix2 r p) = Attn.soft (fun c : Fin 2048 => X (ix2 r c)) p := by
  have hE : ∀ c : Fin 2048, exp (subf X (spreadMax X)) (ix2 r c)
      = Ideal.exp (X (ix2 r c) - Attn.rowMax (fun c : Fin 2048 => X (ix2 r c))) := fun c => by
    show Ideal.exp (X (ix2 r c) - spreadMax X (ix2 r c)) = _
    rw [spreadMax_apply]
  show Ideal.div (exp (subf X (spreadMax X)) (ix2 r p)) (spreadSum (exp (subf X (spreadMax X))) (ix2 r p)) = _
  rw [spreadSum_apply, hE p]
  exact congrArg (Ideal.div _) (Finset.sum_congr rfl fun c _ => hE c)

/-! ## The logits matrix and the two tiles -/

/-- The 512 × 2048 matrix `(Q M) Pᵀ` of the three blocks. -/
def logitsTile (x0 : Vec Ideal S1x512x64 .f32) (x1 : Vec Ideal S1x64x64 .f32) (x2 : Vec Ideal S1x2048x64 .f32) : FVec Ideal S512x2048 .f32 :=
  matmul dot_S512x64_S2048x64_S512x2048_1_1_0_0_n_n (some .fp32)
    (matmul dot_S512x64_S64x64_S512x64_1_0_0_1_n_n none (truncf .bf16 (shapeCast S512x64 x0 shapeCasts_S1x512x64_S512x64 : FVec Ideal S512x64 .f32) bitsLt_bf16_f32)
      (truncf .bf16 (shapeCast S64x64 x1 shapeCasts_S1x64x64_S64x64 : FVec Ideal S64x64 .f32) bitsLt_bf16_f32) (constant S512x64 .f32 0x00000000#32))
    (shapeCast S2048x64 x2 shapeCasts_S1x2048x64_S2048x64 : FVec Ideal S2048x64 .f32) (constant S512x2048 .f32 0x00000000#32)

theorem logitsTile_apply (x0 : Vec Ideal S1x512x64 .f32) (x1 : Vec Ideal S1x64x64 .f32) (x2 : Vec Ideal S1x2048x64 .f32)
    (r : Fin 512) (p : Fin 2048) :
    logitsTile x0 x1 x2 (ix2 r p)
      = ∑ e : Fin 64, (∑ d : Fin 64, x0 (ix3 (0 : Fin 1) r d) * x1 (ix3 (0 : Fin 1) d e)) * x2 (ix3 (0 : Fin 1) p e) := by
  unfold logitsTile
  refine (product_XPt _ _ r p).trans ?_
  refine Finset.sum_congr rfl fun e _ => ?_
  refine congrArg₂ (· * ·) ((product_QM _ _ r e).trans (Finset.sum_congr rfl fun d _ => congrArg₂ (· * ·) ?_ ?_)) ?_
  · exact shapeCast_1ab_ab_apply x0 _ r d
  · exact shapeCast_1ab_ab_apply x1 _ d e
  · exact shapeCast_1ab_ab_apply x2 _ p e

/-- The stored weights tile is the row softmax of the logits matrix, under a leading unit axis. -/
theorem weightsTile_eq (x0 : Vec Ideal S1x512x64 .f32) (x1 : Vec Ideal S1x64x64 .f32) (x2 : Vec Ideal S1x2048x64 .f32) :
    k0_pay1 (F := Ideal) x0 x1 x2 = shapeCast S1x512x2048 (softRows (logitsTile x0 x1 x2)) shapeCasts_S512x2048_S1x512x2048 := rfl

/-- Entry (r, p) of the weights tile: the softmax of the row of logits of query row `r`. -/
theorem weightsTile_apply (x0 : Vec Ideal S1x512x64 .f32) (x1 : Vec Ideal S1x64x64 .f32) (x2 : Vec Ideal S1x2048x64 .f32)
    (u : Fin 1) (r : Fin 512) (p : Fin 2048) :
    k0_pay1 (F := Ideal) x0 x1 x2 (ix3 u r p)
      = Attn.soft (fun c : Fin 2048 => ∑ e : Fin 64, (∑ d : Fin 64, x0 (ix3 (0 : Fin 1) r d) * x1 (ix3 (0 : Fin 1) d e)) * x2 (ix3 (0 : Fin 1) c e)) p := by
  rw [weightsTile_eq]
  refine (shapeCast_ab_1ab_apply _ _ u r p).trans ?_
  rw [softRows_apply]
  exact congrArg (fun x => Attn.soft x p) (funext fun c => logitsTile_apply x0 x1 x2 r c)

/-- Entry (r, d) of the output tile: the weights of row `r` against column `d` of the value block. -/
theorem outputTile_apply (x3 : Vec Ideal S1x2048x64 .bf16) (w : Vec Ideal S1x512x2048 .f32) (u : Fin 1) (r : Fin 512) (d : Fin 64) :
    k0_pay2 (F := Ideal) x3 w (ix3 u r d) = ∑ l : Fin 2048, w (ix3 (0 : Fin 1) r l) * x3 (ix3 (0 : Fin 1) l d) := by
  unfold k0_pay2
  refine (shapeCast_ab_1ab_apply _ _ u r d).trans ?_
  refine (product_WU _ _ r d).trans ?_
  refine Finset.sum_congr rfl fun l _ => congrArg₂ (· * ·) ?_ ?_
  · exact shapeCast_1ab_ab_apply w _ r l
  · exact shapeCast_1ab_ab_apply x3 _ l d

end Cert.KernelIdeal.Tile

end
-- ==== Proof.Point.lean ====
/-
  One grid point against the whole arrays.

  The grid point of batch `b` and query tile `t` (four tiles of 512 rows) sees rows `512 t + r` of `q`, all of the
  scaled product `(kᵀ q) / 64` of batch `b`, and all of `pos` and `v` of batch `b`. Read with those blocks, the weights
  tile is rows `512 t + r` of the weights computed from the factored logits, and the output tile is the same rows
  of their product with `v`.
-/
import proofs.«174084_j34849364639933_2_alg».proof.Proof.Tile

set_option maxRecDepth 16384

noncomputable section

namespace Cert.KernelIdeal.Point

open Cert.KernelIdeal Cert.KernelIdeal.Gen
open Idealize.ShloMosaic Idealize.ShloMosaic.ValueIdx

/-- Row `r` of query tile `t`, as a row of the whole array. -/
def row (t : Fin 4) (r : Fin 512) : Fin 2048 := ⟨t.val * 512 + r.val, by have := t.isLt; have := r.isLt; omega⟩

/-- The weights tile of a grid point is its rows of the weights computed from the factored logits. -/
theorem weights_point (q k pos : Attn.Arr) (ktq : (⟨3, ![16, 64, 64]⟩ : Shape).Idx → EReal)
    (hktq : ∀ (b : Fin 16) (d e : Fin 64), ktq (ix3 b d e) = (∑ l : Fin 2048, k (ix3 b l d) * q (ix3 b l e)) * Attn.inv64)
    (x0 : Vec Ideal S1x512x64 .f32) (x1 : Vec Ideal S1x64x64 .f32) (x2 : Vec Ideal S1x2048x64 .f32)
    (b : Fin 16) (t : Fin 4)
    (h0 : ∀ (r : Fin 512) (d : Fin 64), x0 (ix3 (0 : Fin 1) r d) = q (ix3 b (row t r) d))
    (h1 : ∀ (d e : Fin 64), x1 (ix3 (0 : Fin 1) d e) = ktq (ix3 b d e))
    (h2 : ∀ (p : Fin 2048) (e : Fin 64), x2 (ix3 (0 : Fin 1) p e) = pos (ix3 b p e))
    (u : Fin 1) (r : Fin 512) (p : Fin 2048) :
    k0_pay1 (F := Ideal) x0 x1 x2 (ix3 u r p) = Attn.weightsF q k pos (ix3 b (row t r) p) := by
  rw [Tile.weightsTile_apply]
  show _ = Attn.soft (Attn.factored q k pos b (row t r)) p
  refine congrArg (fun x => Attn.soft x p) (funext fun c => ?_)
  show _ = ∑ e : Fin 64, (∑ d : Fin 64, q (ix3 b (row t r) d) * ((∑ l : Fin 2048, k (ix3 b l d) * q (ix3 b l e)) * Attn.inv64)) * pos (ix3 b c e)
  refine Finset.sum_congr rfl fun e _ => ?_
  rw [h2 c e]
  refine congrArg (· * pos (ix3 b c e)) (Finset.sum_congr rfl fun d _ => ?_)
  rw [h0 r d, h1 d e, hktq b d e]

/-- The output tile of a grid point is its rows of the weighted sum of the rows of `v`, for the weights its weights
    tile holds. -/
theorem output_point (w : Attn.Sq) (v : Attn.Arr) (x3 : Vec Ideal S1x2048x64 .bf16) (wt : Vec Ideal S1x512x2048 .f32)
    (b : Fin 16) (t : Fin 4)
    (h3 : ∀ (l : Fin 2048) (d : Fin 64), x3 (ix3 (0 : Fin 1) l d) = v (ix3 b l d))
    (hw : ∀ (r : Fin 512) (l : Fin 2048), wt (ix3 (0 : Fin 1) r l) = w (ix3 b (row t r) l))
    (u : Fin 1) (r : Fin 512) (d : Fin 64) :
    k0_pay2 (F := Ideal) x3 wt (ix3 u r d) = Attn.mix w v (ix3 b (row t r) d) := by
  rw [Tile.outputTile_apply]
  show _ = ∑ l : Fin 2048, w (ix3 b (row t r) l) * v (ix3 b l d)
  exact Finset.sum_congr rfl fun l _ => by rw [hw r l, h3 l d]

end Cert.KernelIdeal.Point

end
-- ==== Proof.RegionEntry.lean ====
/-
  What the kernel's region finds in the two arrays the host computes before it.

  Before the region the host forms, from the arguments q, k, v:
      the 64 × 64 matrix of each batch,  ∑ l, k[b, l, d] · q[b, l, e]  (a product contracted over the 2048 rows of both),
      multiplied entrywise by the constant 1/64 broadcast over [16, 64, 64];
      and v converted to the narrower format, which at the extended reals is v itself.
  Both are read here entry by entry: the first as the sum over the rows times 1/64, the second as v's entry.
-/
import proofs.«174084_j34849364639933_2_alg».proof.Proof.Gen.KernelIdeal.Frame
import proofs.«174084_j34849364639933_2_alg».proof.Proof.MixedAttention
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.Entry

open Cert.KernelIdeal Cert.KernelIdeal.Gen Idealize.ShloMosaic Idealize.ShloMosaic.TcCoe Idealize.ShloMosaic.ValueIdx
  Idealize.SL.Sem

/-- An argument array [16, 2048, 64] of extended reals. -/
abbrev A : Type := (⟨S16x2048x64, .f32⟩ : BufTy).Contents (Elt Ideal)

/-- The product's dimension numbers: batch axis 0 of both operands, both contracted over axis 1, axis 2 of each kept. -/
abbrev D : DotDims S16x2048x64 S16x2048x64 S16x64x64 := dot_S16x2048x64_S16x2048x64_S16x64x64_1_1_2_2_0_0

/-! ## The operand indices of the contracted product, coordinate by coordinate -/

/-- The left operand is read at the result's batch coordinate … -/
theorem lhs_0 (i : S16x64x64.Idx) (q : D.contr.Idx) : (D.lhsIdx i q 0).val = (i 0).val := by
  unfold DotDims.lhsIdx
  rw [dif_pos (show (0 : Fin S16x2048x64.rank) ∈ D.lhsBatch by decide)]
  rfl
/-- … at the summed row … -/
theorem lhs_1 (i : S16x64x64.Idx) (q : D.contr.Idx) : (D.lhsIdx i q 1).val = (q ⟨0, by decide⟩).val :=
  D.lhsIdx_val_of_single rfl i q
/-- … and at the result's middle coordinate. -/
theorem lhs_2 (i : S16x64x64.Idx) (q : D.contr.Idx) : (D.lhsIdx i q 2).val = (i 1).val := by
  unfold DotDims.lhsIdx
  rw [dif_neg (show ¬(2 : Fin S16x2048x64.rank) ∈ D.lhsBatch by decide),
    dif_pos (show (2 : Fin S16x2048x64.rank) ∈ D.lhsNonContracting by decide)]
  rfl
/-- The right operand is read at the result's batch coordinate … -/
theorem rhs_0 (i : S16x64x64.Idx) (q : D.contr.Idx) : (D.rhsIdx i q 0).val = (i 0).val := by
  unfold DotDims.rhsIdx
  rw [dif_pos (show (0 : Fin S16x2048x64.rank) ∈ D.rhsBatch by decide)]
  rfl
/-- … at the summed row … -/
theorem rhs_1 (i : S16x64x64.Idx) (q : D.contr.Idx) : (D.rhsIdx i q 1).val = (q ⟨0, by decide⟩).val :=
  D.rhsIdx_val_of_single rfl i q
/-- … and at the result's last coordinate. -/
theorem rhs_2 (i : S16x64x64.Idx) (q : D.contr.Idx) : (D.rhsIdx i q 2).val = (i 2).val := by
  unfold DotDims.rhsIdx
  rw [dif_neg (show ¬(2 : Fin S16x2048x64.rank) ∈ D.rhsBatch by decide),
    dif_pos (show (2 : Fin S16x2048x64.rank) ∈ D.rhsNonContracting by decide)]
  rfl

/-- The contracted product at (b, d, e): the sum over the rows l of x[b, l, d] · y[b, l, e]. -/
theorem dot_apply (x y : A) (b : Fin 16) (d e : Fin 64) :
    Host.dotGeneral (F := Ideal) (φ₁ := .f32) (φ₂ := .f32) D (some .fp32) x y (ix3 b d e)
      = ∑ l : Fin 2048, x (ix3 b l d) * y (ix3 b l e) := by
  simp only [Host.dotGeneral]
  rw [Ideal.dotGeneral_apply, ← Equiv.sum_comp (ValueIdx.contrEquiv1 D 2048 rfl rfl).symm]
  refine Finset.sum_congr rfl fun l _ => ?_
  have hl := ValueIdx.contrEquiv1_symm_val D 2048 rfl rfl l
  have el : D.lhsIdx (ix3 b d e) ((ValueIdx.contrEquiv1 D 2048 rfl rfl).symm l) = ix3 b l d :=
    funext fun a => Fin.ext (by
      match a with
      | ⟨0, _⟩ => exact lhs_0 _ _
      | ⟨1, _⟩ => exact (lhs_1 _ _).trans hl
      | ⟨2, _⟩ => exact lhs_2 _ _)
  have er : D.rhsIdx (ix3 b d e) ((ValueIdx.contrEquiv1 D 2048 rfl rfl).symm l) = ix3 b l e :=
    funext fun a => Fin.ext (by
      match a with
      | ⟨0, _⟩ => exact rhs_0 _ _
      | ⟨1, _⟩ => exact (rhs_1 _ _).trans hl
      | ⟨2, _⟩ => exact rhs_2 _ _)
  rw [el, er]

/-- The scaled product at (b, d, e): the sum over the rows times 1/64 (the broadcast constant read at any entry). -/
theorem scaled_apply (x y : A) (b : Fin 16) (d e : Fin 64) :
    mulf (Host.dotGeneral (F := Ideal) (φ₁ := .f32) (φ₂ := .f32) D (some .fp32) x y)
        (broadcastInDim S16x64x64 ![] bcast_S_S16x64x64 (constant (F := Ideal) S_ .f32 0x3C800000#32)) (ix3 b d e)
      = (∑ l : Fin 2048, x (ix3 b l d) * y (ix3 b l e)) * Cert.Attn.inv64 := by
  rw [ValueIdx.mulf_apply, dot_apply,
    broadcastInDim_apply _ bcast_S_S16x64x64 (constant (F := Ideal) S_ .f32 0x3C800000#32) (ix3 b d e)
      (fun a => a.elim0) (fun a => a.elim0)]
  rfl

/-! ## The two arrays at region entry -/

variable (m : (ℓ : Loc nD τ sig) → Buf (Elt Ideal) ℓ)

/-- The arguments q, k and v as core `c` is launched with them, as arrays of extended reals. -/
abbrev arg0 (c : Dev nD) : Cert.Attn.Arr := m ((c : Thread nD τ).loc main_arg0)
abbrev arg1 (c : Dev nD) : Cert.Attn.Arr := m ((c : Thread nD τ).loc main_arg1)
abbrev arg2 (c : Dev nD) : Cert.Attn.Arr := m ((c : Thread nD τ).loc main_arg2)

/-- The scaled product as the host's operations spell it. -/
theorem V_main_v2_eq (c : Dev nD) :
    (V m c main_v2 : S16x64x64.Idx → EReal)
      = mulf (Host.dotGeneral (F := Ideal) (φ₁ := .f32) (φ₂ := .f32) D (some .fp32) (arg1 m c) (arg0 m c))
          (broadcastInDim S16x64x64 ![] bcast_S_S16x64x64 (constant (F := Ideal) S_ .f32 0x3C800000#32)) := by
  dsimp only [Gen.V, Gen.hostOps0]
  after_results

/-- The converted values as the host's operation spells them. -/
theorem V_main_v3_eq (c : Dev nD) :
    (V m c main_v3 : S16x2048x64.Idx → EReal) = truncf (F := Ideal) (φ := .f32) .bf16 (arg2 m c) bitsLt_bf16_f32 := by
  dsimp only [Gen.V, Gen.hostOps0]
  after_results

/-- At (b, d, e) the region finds (∑ l, k[b, l, d] · q[b, l, e]) · (1/64). -/
theorem scaled_product (c : Dev nD) (b : Fin 16) (d e : Fin 64) :
    (V m c main_v2 : S16x64x64.Idx → EReal) (ix3 b d e)
      = (∑ l : Fin 2048, arg1 m c (ix3 b l d) * arg0 m c (ix3 b l e)) * Cert.Attn.inv64 :=
  (congrFun (V_main_v2_eq m c) (ix3 b d e)).trans (scaled_apply (arg1 m c) (arg0 m c) b d e)

/-- The converted values are v's entries. -/
theorem values_found (c : Dev nD) (i : S16x2048x64.Idx) :
    (V m c main_v3 : S16x2048x64.Idx → EReal) i = arg2 m c i :=
  congrFun (V_main_v3_eq m c) i

end Cert.KernelIdeal.Entry

end
-- ==== Proof.Arrays.lean ====
/-
  From the grid's blocks to the two result arrays.

  The grid has 16 × 4 points: point (b, t) handles batch `b` and query tile `t` (rows 512 t … 512 t + 511). Its query
  block is rows 512 t … of `q[b]`; its other three input blocks are all of the scaled product, of `pos` and of `v` for
  batch `b`; and it writes back rows 512 t … of the weights array and of the output array of batch `b`. Every index of a
  result array lies in exactly such a block (row `i` of batch `b` is in tile `i / 512`), so each array ends holding one
  function of the argument arrays: the weights computed from the factored logits, and their product with `v`.
-/
import proofs.«174084_j34849364639933_2_alg».proof.Proof.Gen.KernelIdeal.Value
import proofs.«174084_j34849364639933_2_alg».proof.Proof.Found
import proofs.«174084_j34849364639933_2_alg».proof.Proof.Point
import proofs.«174084_j34849364639933_2_alg».proof.Proof.RegionEntry

set_option maxRecDepth 16384

noncomputable section

namespace Cert.KernelIdeal.Arrays

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The four argument arrays on core `c`, as launched. -/
abbrev argQ (c : Dev nD) : Attn.Arr := m ((c : Thread nD τ).loc main_arg0)
abbrev argK (c : Dev nD) : Attn.Arr := m ((c : Thread nD τ).loc main_arg1)
abbrev argV (c : Dev nD) : Attn.Arr := m ((c : Thread nD τ).loc main_arg2)
abbrev argP (c : Dev nD) : Attn.Arr := m ((c : Thread nD τ).loc main_arg3)

/-! ## Which blocks a grid point sees -/

/-- The block indices of the six windows at every grid point, relative to the weights window's: the query and output
    windows move with it on the batch and tile axes, the other three only on the batch axis; the batch index is below 16
    and the tile index below 4. -/
theorem idx_facts : ∀ t : Fin cfg0.N,
    win0_0.index t (0 : Fin 3) = win0_5.index t (0 : Fin 3)
    ∧ win0_0.index t (1 : Fin 3) = win0_5.index t (1 : Fin 3)
    ∧ win0_0.index t (2 : Fin 3) = 0
    ∧ win0_1.index t (0 : Fin 3) = win0_5.index t (0 : Fin 3)
    ∧ win0_1.index t (1 : Fin 3) = 0
    ∧ win0_1.index t (2 : Fin 3) = 0
    ∧ win0_2.index t (0 : Fin 3) = win0_5.index t (0 : Fin 3)
    ∧ win0_2.index t (1 : Fin 3) = 0
    ∧ win0_2.index t (2 : Fin 3) = 0
    ∧ win0_3.index t (0 : Fin 3) = win0_5.index t (0 : Fin 3)
    ∧ win0_3.index t (1 : Fin 3) = 0
    ∧ win0_3.index t (2 : Fin 3) = 0
    ∧ win0_4.index t (0 : Fin 3) = win0_5.index t (0 : Fin 3)
    ∧ win0_4.index t (1 : Fin 3) = win0_5.index t (1 : Fin 3)
    ∧ win0_4.index t (2 : Fin 3) = 0
    ∧ win0_5.index t (2 : Fin 3) = 0
    ∧ win0_5.index t (0 : Fin 3) < 16 ∧ win0_5.index t (1 : Fin 3) < 4 :=
  (by decide +kernel : ∀ t : Fin grid0.N, _)

/-- Every (batch, tile) pair is some grid point's. -/
theorem idx_onto : ∀ (b : Fin 16) (q : Fin 4), ∃ t : Fin cfg0.N, win0_5.index t = ![b.val, q.val, 0] ∧ win0_4.index t = ![b.val, q.val, 0] :=
  (by decide +kernel : ∀ (b : Fin 16) (q : Fin 4), ∃ t : Fin grid0.N, win0_5.index t = ![b.val, q.val, 0] ∧ win0_4.index t = ![b.val, q.val, 0])

/-- The batch and the query tile of a grid point. -/
def batchOf (t : Fin cfg0.N) : Fin 16 := ⟨win0_5.index t (0 : Fin 3), by obtain ⟨q0, q1, q2, m0, m1, m2, p0, p1, p2, v0, v1, v2, o0, o1, o2, w2, hb, ht⟩ := idx_facts t; exact hb⟩
def tileOf (t : Fin cfg0.N) : Fin 4 := ⟨win0_5.index t (1 : Fin 3), by obtain ⟨q0, q1, q2, m0, m1, m2, p0, p1, p2, v0, v1, v2, o0, o1, o2, w2, hb, ht⟩ := idx_facts t; exact ht⟩

/-! ## The four input blocks, read off the arrays -/

/-- The query block: rows of tile `tileOf t` of `q` at batch `batchOf t`. -/
theorem query_block (c : Dev nD) (t : Fin cfg0.N) (r : Fin 512) (d : Fin 64) :
    iblk m c 0 t (ix3 (0 : Fin 1) r d) = argQ m c (ix3 (batchOf t) (Point.row (tileOf t) r) d) := by
  show V m c main_arg0 (((cfg0.win 0).blk t).view.emb (ix3 (0 : Fin 1) r d)) = _
  rw [V_main_arg0]
  refine congrArg (m ((c : Thread nD τ).loc main_arg0)) (funext fun a => Fin.ext ?_)
  obtain ⟨q0, q1, q2, m0, m1, m2, p0, p1, p2, v0, v1, v2, o0, o1, o2, w2, hb, ht⟩ := idx_facts t
  match a with
  | ⟨0, _⟩ => show win0_0.index t (0 : Fin 3) * 1 + 1 * 0 = win0_5.index t (0 : Fin 3); omega
  | ⟨1, _⟩ => show win0_0.index t (1 : Fin 3) * 512 + 1 * r.val = win0_5.index t (1 : Fin 3) * 512 + r.val; omega
  | ⟨2, _⟩ => show win0_0.index t (2 : Fin 3) * 64 + 1 * d.val = d.val; omega

/-- The scaled-product block: all of batch `batchOf t` of the array the host computed before the region. -/
theorem product_block (c : Dev nD) (t : Fin cfg0.N) (d e : Fin 64) :
    iblk m c 1 t (ix3 (0 : Fin 1) d e) = (V m c main_v2 : S16x64x64.Idx → EReal) (ix3 (batchOf t) d e) := by
  show (V m c main_v2 : S16x64x64.Idx → EReal) (((cfg0.win 1).blk t).view.emb (ix3 (0 : Fin 1) d e)) = _
  refine congrArg (V m c main_v2 : S16x64x64.Idx → EReal) (funext fun a => Fin.ext ?_)
  obtain ⟨q0, q1, q2, m0, m1, m2, p0, p1, p2, v0, v1, v2, o0, o1, o2, w2, hb, ht⟩ := idx_facts t
  match a with
  | ⟨0, _⟩ => show win0_1.index t (0 : Fin 3) * 1 + 1 * 0 = win0_5.index t (0 : Fin 3); omega
  | ⟨1, _⟩ => show win0_1.index t (1 : Fin 3) * 64 + 1 * d.val = d.val; omega
  | ⟨2, _⟩ => show win0_1.index t (2 : Fin 3) * 64 + 1 * e.val = e.val; omega

/-- The position block: all of batch `batchOf t` of `pos`. -/
theorem position_block (c : Dev nD) (t : Fin cfg0.N) (p : Fin 2048) (e : Fin 64) :
    iblk m c 2 t (ix3 (0 : Fin 1) p e) = argP m c (ix3 (batchOf t) p e) := by
  show V m c main_arg3 (((cfg0.win 2).blk t).view.emb (ix3 (0 : Fin 1) p e)) = _
  rw [V_main_arg3]
  refine congrArg (m ((c : Thread nD τ).loc main_arg3)) (funext fun a => Fin.ext ?_)
  obtain ⟨q0, q1, q2, m0, m1, m2, p0, p1, p2, v0, v1, v2, o0, o1, o2, w2, hb, ht⟩ := idx_facts t
  match a with
  | ⟨0, _⟩ => show win0_2.index t (0 : Fin 3) * 1 + 1 * 0 = win0_5.index t (0 : Fin 3); omega
  | ⟨1, _⟩ => show win0_2.index t (1 : Fin 3) * 2048 + 1 * p.val = p.val; omega
  | ⟨2, _⟩ => show win0_2.index t (2 : Fin 3) * 64 + 1 * e.val = e.val; omega

/-- The value block: all of batch `batchOf t` of `v` (the host's change of format is the identity). -/
theorem value_block (c : Dev nD) (t : Fin cfg0.N) (l : Fin 2048) (d : Fin 64) :
    iblk m c 3 t (ix3 (0 : Fin 1) l d) = argV m c (ix3 (batchOf t) l d) := by
  show (V m c main_v3 : S16x2048x64.Idx → EReal) (((cfg0.win 3).blk t).view.emb (ix3 (0 : Fin 1) l d)) = _
  refine (Entry.values_found m c _).trans ?_
  refine congrArg (m ((c : Thread nD τ).loc main_arg2)) (funext fun a => Fin.ext ?_)
  obtain ⟨q0, q1, q2, m0, m1, m2, p0, p1, p2, v0, v1, v2, o0, o1, o2, w2, hb, ht⟩ := idx_facts t
  match a with
  | ⟨0, _⟩ => show win0_3.index t (0 : Fin 3) * 1 + 1 * 0 = win0_5.index t (0 : Fin 3); omega
  | ⟨1, _⟩ => show win0_3.index t (1 : Fin 3) * 2048 + 1 * l.val = l.val; omega
  | ⟨2, _⟩ => show win0_3.index t (2 : Fin 3) * 64 + 1 * d.val = d.val; omega

/-! ## What each point writes back -/

/-- The weights tile of point `t`, entry by entry: its rows of the weights computed from the factored logits. -/
theorem weights_tile (c : Dev nD) (t : Fin cfg0.N) (u : Fin 1) (r : Fin 512) (p : Fin 2048) :
    k0_pay1 (F := Ideal) (iblk m c 0 t) (iblk m c 1 t) (iblk m c 2 t) (ix3 u r p)
      = Attn.weightsF (argQ m c) (argK m c) (argP m c) (ix3 (batchOf t) (Point.row (tileOf t) r) p) :=
  Point.weights_point (argQ m c) (argK m c) (argP m c) (V m c main_v2 : S16x64x64.Idx → EReal)
    (fun b d e => Entry.scaled_product m c b d e) (iblk m c 0 t) (iblk m c 1 t) (iblk m c 2 t) (batchOf t) (tileOf t)
    (query_block m c t) (product_block m c t) (position_block m c t) u r p

/-- Point `t` writes back, to the weights array, its block of the weights computed from the factored logits. -/
theorem flushed_weights (c : Dev nD) (t : Fin cfg0.N) :
    (dats m 0 c).flushed 5 t = ((cfg0.win 5).blk t).view.read (Elt Ideal) (Attn.weightsF (argQ m c) (argK m c) (argP m c)) := by
  rw [Value.flushed5_A, Found.weights_buffer]
  funext y
  obtain ⟨u, r, p, rfl⟩ : ∃ (u : Fin 1) (r : Fin 512) (p : Fin 2048), y = ix3 u r p :=
    ⟨y 0, y 1, y 2, eq_ix3 (n0 := 1) (n1 := 512) (n2 := 2048) y⟩
  show k0_pay1 (F := Ideal) (iblk m c 0 t) (iblk m c 1 t) (iblk m c 2 t) (ix3 u r p)
    = Attn.weightsF (argQ m c) (argK m c) (argP m c) (((cfg0.win 5).blk t).view.emb (ix3 u r p))
  have hemb : ((cfg0.win 5).blk t).view.emb (ix3 u r p) = ix3 (batchOf t) (Point.row (tileOf t) r) p :=
    funext fun a => Fin.ext (by
      have hu : u.val = 0 := by omega
      obtain ⟨q0, q1, q2, m0, m1, m2, p0, p1, p2, v0, v1, v2, o0, o1, o2, w2, hb, ht⟩ := idx_facts t
      match a with
      | ⟨0, _⟩ => show win0_5.index t (0 : Fin 3) * 1 + 1 * u.val = win0_5.index t (0 : Fin 3); omega
      | ⟨1, _⟩ => show win0_5.index t (1 : Fin 3) * 512 + 1 * r.val = win0_5.index t (1 : Fin 3) * 512 + r.val; omega
      | ⟨2, _⟩ => show win0_5.index t (2 : Fin 3) * 2048 + 1 * p.val = p.val; omega)
  rw [hemb]
  exact weights_tile m c t u r p

/-- Point `t` writes back, to the output array, its block of those weights' product with `v`. -/
theorem flushed_output (c : Dev nD) (t : Fin cfg0.N) :
    (dats m 0 c).flushed 4 t
      = ((cfg0.win 4).blk t).view.read (Elt Ideal) (Attn.mix (Attn.weightsF (argQ m c) (argK m c) (argP m c)) (argV m c)) := by
  rw [Value.flushed4_A, Found.output_buffer]
  funext y
  obtain ⟨u, r, d, rfl⟩ : ∃ (u : Fin 1) (r : Fin 512) (d : Fin 64), y = ix3 u r d :=
    ⟨y 0, y 1, y 2, eq_ix3 (n0 := 1) (n1 := 512) (n2 := 64) y⟩
  show k0_pay2 (F := Ideal) (iblk m c 3 t) (k0_pay1 (F := Ideal) (iblk m c 0 t) (iblk m c 1 t) (iblk m c 2 t)) (ix3 u r d)
    = Attn.mix (Attn.weightsF (argQ m c) (argK m c) (argP m c)) (argV m c) (((cfg0.win 4).blk t).view.emb (ix3 u r d))
  have hemb : ((cfg0.win 4).blk t).view.emb (ix3 u r d) = ix3 (batchOf t) (Point.row (tileOf t) r) d :=
    funext fun a => Fin.ext (by
      have hu : u.val = 0 := by omega
      obtain ⟨q0, q1, q2, m0, m1, m2, p0, p1, p2, v0, v1, v2, o0, o1, o2, w2, hb, ht⟩ := idx_facts t
      match a with
      | ⟨0, _⟩ => show win0_4.index t (0 : Fin 3) * 1 + 1 * u.val = win0_5.index t (0 : Fin 3); omega
      | ⟨1, _⟩ => show win0_4.index t (1 : Fin 3) * 512 + 1 * r.val = win0_5.index t (1 : Fin 3) * 512 + r.val; omega
      | ⟨2, _⟩ => show win0_4.index t (2 : Fin 3) * 64 + 1 * d.val = d.val; omega)
  rw [hemb]
  exact Point.output_point (Attn.weightsF (argQ m c) (argK m c) (argP m c)) (argV m c) (iblk m c 3 t)
    (k0_pay1 (F := Ideal) (iblk m c 0 t) (iblk m c 1 t) (iblk m c 2 t)) (batchOf t) (tileOf t)
    (value_block m c t) (fun r l => weights_tile m c t (0 : Fin 1) r l) u r d

/-! ## The blocks fill the arrays -/

/-- An index of the weights array is in point `t`'s block iff each coordinate is in the block's range on its axis. -/
theorem mem_weights_block (t : Fin cfg0.N) (i : S16x2048x2048.Idx) :
    i ∈ ((cfg0.win 5).blk t).view.set ↔ ∀ a : Fin 3, win0_5.index t a * S1x512x2048.size a ≤ (i a).val ∧ (i a).val < win0_5.index t a * S1x512x2048.size a + S1x512x2048.size a := by
  show i ∈ ((View.whole main_v4_1).slice (win0_5.rect t)).set ↔ _
  rw [View.set_slice_whole, Rect.mem_set_unit]
  exact Iff.rfl

/-- The same for the output array. -/
theorem mem_output_block (t : Fin cfg0.N) (i : S16x2048x64.Idx) :
    i ∈ ((cfg0.win 4).blk t).view.set ↔ ∀ a : Fin 3, win0_4.index t a * S1x512x64.size a ≤ (i a).val ∧ (i a).val < win0_4.index t a * S1x512x64.size a + S1x512x64.size a := by
  show i ∈ ((View.whole main_v4_0).slice (win0_4.rect t)).set ↔ _
  rw [View.set_slice_whole, Rect.mem_set_unit]
  exact Iff.rfl

/-- Every index of the weights array is in some point's block: row `i` of batch `b` is in tile `i / 512`. -/
theorem weights_covered (i : S16x2048x2048.Idx) :
    ∃ t : Fin cfg0.N, (cfg0.win 5).flush t = true ∧ i ∈ ((cfg0.win 5).blk t).view.set := by
  have hi0 : (i 0).val < 16 := (i 0).isLt
  have hi1 : (i 1).val < 2048 := (i 1).isLt
  have hi2 : (i 2).val < 2048 := (i 2).isLt
  obtain ⟨t, ht, -⟩ := idx_onto ⟨(i 0).val, hi0⟩ ⟨(i 1).val / 512, by omega⟩
  have e0 : win0_5.index t (0 : Fin 3) = (i 0).val := congrFun ht 0
  have e1 : win0_5.index t (1 : Fin 3) = (i 1).val / 512 := congrFun ht 1
  have e2 : win0_5.index t (2 : Fin 3) = 0 := congrFun ht 2
  refine ⟨t, flush0_5 t, ?_⟩
  rw [mem_weights_block]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 2048 ≤ (i 2).val ∧ (i 2).val < win0_5.index t (2 : Fin 3) * 2048 + 2048; omega

/-- Every index of the output array is in some point's block. -/
theorem output_covered (i : S16x2048x64.Idx) :
    ∃ t : Fin cfg0.N, (cfg0.win 4).flush t = true ∧ i ∈ ((cfg0.win 4).blk t).view.set := by
  have hi0 : (i 0).val < 16 := (i 0).isLt
  have hi1 : (i 1).val < 2048 := (i 1).isLt
  have hi2 : (i 2).val < 64 := (i 2).isLt
  obtain ⟨t, -, ht⟩ := idx_onto ⟨(i 0).val, hi0⟩ ⟨(i 1).val / 512, by omega⟩
  have e0 : win0_4.index t (0 : Fin 3) = (i 0).val := congrFun ht 0
  have e1 : win0_4.index t (1 : Fin 3) = (i 1).val / 512 := congrFun ht 1
  have e2 : win0_4.index t (2 : Fin 3) = 0 := congrFun ht 2
  refine ⟨t, flush0_4 t, ?_⟩
  rw [mem_output_block]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 64 ≤ (i 2).val ∧ (i 2).val < win0_4.index t (2 : Fin 3) * 64 + 64; omega

/-! ## The two arrays after the run -/

/-- The weights array ends holding the weights computed from the factored logits. -/
theorem final_weights (c : Dev nD) : (dats m 0 c).arrAt 5 cfg0.N = Attn.weightsF (argQ m c) (argK m c) (argP m c) :=
  (dats m 0 c).arrAt_eq_of_cover 5 _ (fun t _ => flushed_weights m c t) weights_covered

/-- The output array ends holding their product with `v`. -/
theorem final_output (c : Dev nD) : (dats m 0 c).arrAt 4 cfg0.N = Attn.mix (Attn.weightsF (argQ m c) (argK m c) (argP m c)) (argV m c) :=
  (dats m 0 c).arrAt_eq_of_cover 4 _ (fun t _ => flushed_output m c t) output_covered

/-- The kernel's run: every weakly fair execution terminates with the two result arrays at these functions of the
    argument arrays, the arguments unchanged. -/
theorem run : θ_run defs (onTc (τ := τ) (main (F := Ideal))) ⟨m, fun _ => 0, ρ⟩ fun r => ∀ c : Dev nD,
      r.2.mem ((c : Thread nD τ).loc main_v4_0) = Attn.mix (Attn.weightsF (argQ m c) (argK m c) (argP m c)) (argV m c)
      ∧ r.2.mem ((c : Thread nD τ).loc main_v4_1) = Attn.weightsF (argQ m c) (argK m c) (argP m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_output m c), (h c).2.1.trans (final_weights m c), (h c).2.2⟩)
    (Value.run_blocks m ρ)

end Cert.KernelIdeal.Arrays

end
-- ==== Proof.ReferenceMeaning.lean ====
/-
  The reference computes the specification.

  Read one operation at a time, the reference program forms, for a batch b, a query row r and a column p,
      the two score matrices  (∑ d, q[b,r,d] · k[b,l,d]) / 8  and  (∑ e, q[b,l,e] · pos[b,p,e]) / 8,
      their product over the key row l (the logits),
      the maximum of each row of logits, started from minus infinity (and once more joined with minus infinity, which
      changes nothing: a maximum started from minus infinity is at least minus infinity),
      the exponential of each logit minus its row maximum, the sum of each row of exponentials (started from zero), the quotient,
      and last the product of these weights with v.
  Each of these is the matching clause of the specification; the only work is to name the index each operation reads.
-/
import proofs.«174084_j34849364639933_2_alg».proof.Proof.Gen.ReferenceIdeal.Read
import proofs.«174084_j34849364639933_2_alg».proof.Proof.MixedAttention
import Idealize.ShloMosaic.Lib.ValueIdx
import Idealize.ShloMosaic.PureOps.Ideal.Laws
import Idealize.ShloMosaic.PureOps.Reduce

noncomputable section

namespace Cert.ReferenceIdeal.Meaning

open Cert.ReferenceIdeal Cert.ReferenceIdeal.Gen Cert.ReferenceIdeal.Read Idealize.ShloMosaic Idealize.ShloMosaic.ValueIdx

/-- An argument array [16, 2048, 64], with the type the generated stages give it. -/
abbrev A : Type := (⟨S16x2048x64, .f32⟩ : BufTy).Contents (Elt Ideal)

/-! ## The indices the operations read, by coordinates -/

/-- The first score matrix at (b, r, l) reads q at (b, r, d) … -/
theorem lidx_v0_ix (b : Fin 16) (r l : Fin 2048) (d : Fin 64) : lidx_main_v0 (ix3 b r l) d = ix3 b r d :=
  funext fun a => by match a with | ⟨0, _⟩ => rfl | ⟨1, _⟩ => rfl | ⟨2, _⟩ => rfl
/-- … and k at (b, l, d). -/
theorem ridx_v0_ix (b : Fin 16) (r l : Fin 2048) (d : Fin 64) : ridx_main_v0 (ix3 b r l) d = ix3 b l d :=
  funext fun a => by match a with | ⟨0, _⟩ => rfl | ⟨1, _⟩ => rfl | ⟨2, _⟩ => rfl
/-- The second score matrix at (b, l, p) reads q at (b, l, e) … -/
theorem lidx_v3_ix (b : Fin 16) (l p : Fin 2048) (e : Fin 64) : lidx_main_v3 (ix3 b l p) e = ix3 b l e :=
  funext fun a => by match a with | ⟨0, _⟩ => rfl | ⟨1, _⟩ => rfl | ⟨2, _⟩ => rfl
/-- … and pos at (b, p, e). -/
theorem ridx_v3_ix (b : Fin 16) (l p : Fin 2048) (e : Fin 64) : ridx_main_v3 (ix3 b l p) e = ix3 b p e :=
  funext fun a => by match a with | ⟨0, _⟩ => rfl | ⟨1, _⟩ => rfl | ⟨2, _⟩ => rfl
/-- The product at (b, r, p) reads the first matrix at (b, r, l) … -/
theorem lidx_v6_ix (b : Fin 16) (r p l : Fin 2048) : lidx_main_v6 (ix3 b r p) l = ix3 b r l :=
  funext fun a => by match a with | ⟨0, _⟩ => rfl | ⟨1, _⟩ => rfl | ⟨2, _⟩ => rfl
/-- … and the second at (b, l, p). -/
theorem ridx_v6_ix (b : Fin 16) (r p l : Fin 2048) : ridx_main_v6 (ix3 b r p) l = ix3 b l p :=
  funext fun a => by match a with | ⟨0, _⟩ => rfl | ⟨1, _⟩ => rfl | ⟨2, _⟩ => rfl
/-- The row maximum broadcast back to (b, r, p) is read at (b, r). -/
theorem idx_v10_v11_ix (b : Fin 16) (r p : Fin 2048) : idx_main_v10 (idx_main_v11 (ix3 b r p)) = ix2 b r :=
  funext fun a => by match a with | ⟨0, _⟩ => rfl | ⟨1, _⟩ => rfl
/-- The row sum broadcast back to (b, r, p) is read at (b, r). -/
theorem idx_v15_v16_ix (b : Fin 16) (r p : Fin 2048) : idx_main_v15 (idx_main_v16 (ix3 b r p)) = ix2 b r :=
  funext fun a => by match a with | ⟨0, _⟩ => rfl | ⟨1, _⟩ => rfl
/-- The row sum at (b, r) reads its operand at (b, r, q). -/
theorem idx_v14_ix (b : Fin 16) (r q : Fin 2048) : idx_main_v14 (ix2 b r) q = ix3 b r q :=
  funext fun a => by match a with | ⟨0, _⟩ => rfl | ⟨1, _⟩ => rfl | ⟨2, _⟩ => rfl
/-- The output at (b, r, d) reads the weights at (b, r, l) … -/
theorem lidx_v18_ix (b : Fin 16) (r l : Fin 2048) (d : Fin 64) : lidx_main_v18 (ix3 b r d) l = ix3 b r l :=
  funext fun a => by match a with | ⟨0, _⟩ => rfl | ⟨1, _⟩ => rfl | ⟨2, _⟩ => rfl
/-- … and v at (b, l, d). -/
theorem ridx_v18_ix (b : Fin 16) (r l : Fin 2048) (d : Fin 64) : ridx_main_v18 (ix3 b r d) l = ix3 b l d :=
  funext fun a => by match a with | ⟨0, _⟩ => rfl | ⟨1, _⟩ => rfl | ⟨2, _⟩ => rfl

/-! ## The logits -/

/-- The product of the two temperature-scaled score matrices, at (b, r, p), is the specification's logit. -/
theorem v6_at (x0 x1 x3 : A) (b : Fin 16) (r p : Fin 2048) :
    val_main_v6 (F := Ideal) x0 x1 x3 (ix3 b r p) = Cert.Attn.logits x0 x1 x3 b r p := by
  rw [val_main_v6_apply]
  unfold Cert.Attn.logits
  refine Finset.sum_congr rfl fun l _ => ?_
  rw [lidx_v6_ix, ridx_v6_ix, val_main_v2_apply, val_main_v5_apply, val_main_v0_apply, val_main_v3_apply,
    val_main_v1_apply, val_main_v4_apply, val_main_cst_apply, val_main_cst_0_apply]
  simp only [Ideal.hostDivf_def, Ideal.ofBits_def]
  refine congrArg₂ (· * ·) (congrArg (Ideal.div · _) (Finset.sum_congr rfl fun d _ => ?_))
    (congrArg (Ideal.div · _) (Finset.sum_congr rfl fun e _ => ?_))
  · rw [lidx_v0_ix, ridx_v0_ix]
  · rw [lidx_v3_ix, ridx_v3_ix]

/-! ## The row maximum -/

/-- The maximum over the last axis, at (b, r), is the maximum of the row (b, r, ·) started from minus infinity. -/
theorem v7_at (x0 x1 x3 : A) (b : Fin 16) (r : Fin 2048) :
    val_main_v7 (F := Ideal) x0 x1 x3 (ix2 b r)
      = Cert.Attn.rowMax (fun q : Fin 2048 => val_main_v6 (F := Ideal) x0 x1 x3 (ix3 b r q)) := by
  unfold val_main_v7
  generalize val_main_v6 (F := Ideal) x0 x1 x3 = X
  have hR : S16x2048x2048.Reduces [2] S16x2048 := by decide
  refine (Host.reduce_eq_fold_single (FloatOps.maximumf (F := Ideal) (φ := .f32)) X _
    reducesTo_S16x2048x2048_S16x2048_d2 hR h_S_ (ix2 b r)).trans ?_
  have hX : (X ∘ hR.lift (ix2 b r)) = fun q : Fin 2048 => X (ix3 b r q) :=
    funext fun q => congrArg X (funext fun a => Fin.ext (by
      match a with | ⟨0, _⟩ => rfl | ⟨1, _⟩ => rfl | ⟨2, _⟩ => rfl))
  exact congrArg (fun f => Finset.fold max Cert.Attn.negInf f (Finset.univ : Finset (Fin 2048))) hX

/-- Joining the row maximum once more with minus infinity changes nothing. -/
theorem v9_at (x0 x1 x3 : A) (b : Fin 16) (r : Fin 2048) :
    val_main_v9 (F := Ideal) x0 x1 x3 (ix2 b r)
      = Cert.Attn.rowMax (fun q : Fin 2048 => val_main_v6 (F := Ideal) x0 x1 x3 (ix3 b r q)) := by
  rw [val_main_v9_apply, val_main_v8_apply, val_main_cst_2_apply, v7_at]
  generalize (fun q : Fin 2048 => val_main_v6 (F := Ideal) x0 x1 x3 (ix3 b r q)) = f
  show max Cert.Attn.negInf (Cert.Attn.rowMax f) = Cert.Attn.rowMax f
  unfold Cert.Attn.rowMax
  exact max_eq_right ((Finset.le_fold_max _).2 (Or.inl le_rfl))

/-! ## The softmax -/

/-- The exponential of a logit minus its row maximum. -/
theorem v13_at (x0 x1 x3 : A) (b : Fin 16) (r p : Fin 2048) :
    val_main_v13 (F := Ideal) x0 x1 x3 (ix3 b r p)
      = Ideal.exp (val_main_v6 (F := Ideal) x0 x1 x3 (ix3 b r p)
          - Cert.Attn.rowMax (fun q : Fin 2048 => val_main_v6 (F := Ideal) x0 x1 x3 (ix3 b r q))) := by
  rw [val_main_v13_apply, val_main_v12_apply, val_main_v11_apply, val_main_v10_apply, idx_v10_v11_ix, v9_at]
  rfl

/-- The quotient by the row sum: the softmax of the row of logits, at p. -/
theorem v17_at (x0 x1 x3 : A) (b : Fin 16) (r p : Fin 2048) :
    val_main_v17 (F := Ideal) x0 x1 x3 (ix3 b r p)
      = Cert.Attn.soft (fun q : Fin 2048 => val_main_v6 (F := Ideal) x0 x1 x3 (ix3 b r q)) p := by
  rw [val_main_v17_apply, val_main_v16_apply, val_main_v15_apply, idx_v15_v16_ix, val_main_v14_apply,
    val_main_cst_3_apply, v13_at]
  unfold Cert.Attn.soft
  simp only [Ideal.hostDivf_def, Ideal.ofBits_def, Ideal.ofBits_zero_f32, zero_add]
  refine congrArg (Ideal.div _) (Finset.sum_congr rfl fun k _ => ?_)
  rw [idx_v14_ix, v13_at]

/-! ## The two statements -/

/-- The reference's weights are the specification's: the softmax of every row of logits. -/
theorem weights_eq (x0 x1 x3 : A) : val_main_v17 (F := Ideal) x0 x1 x3 = Cert.Attn.weights x0 x1 x3 := by
  funext i
  obtain ⟨b, r, p, rfl⟩ : ∃ (b : Fin 16) (r : Fin 2048) (p : Fin 2048), i = ix3 b r p := ⟨i 0, i 1, i 2, eq_ix3 i⟩
  rw [v17_at]
  have hrow : (fun q : Fin 2048 => val_main_v6 (F := Ideal) x0 x1 x3 (ix3 b r q)) = Cert.Attn.logits x0 x1 x3 b r :=
    funext fun q => v6_at x0 x1 x3 b r q
  rw [hrow]
  rfl

/-- The reference's output is the specification's: the weighted sum of the rows of v. -/
theorem out_eq (x0 x1 x2 x3 : A) :
    val_main_v18 (F := Ideal) x0 x1 x2 x3 = Cert.Attn.mix (Cert.Attn.weights x0 x1 x3) x2 := by
  funext i
  obtain ⟨b, r, d, rfl⟩ : ∃ (b : Fin 16) (r : Fin 2048) (d : Fin 64), i = ix3 b r d := ⟨i 0, i 1, i 2, eq_ix3 i⟩
  rw [val_main_v18_apply, weights_eq]
  unfold Cert.Attn.mix
  refine Finset.sum_congr rfl fun l _ => ?_
  rw [lidx_v18_ix, ridx_v18_ix]

end Cert.ReferenceIdeal.Meaning

end
-- ==== Proof.Literals.lean ====
/-
  The three float words the two programs spell besides zero, as the extended reals they denote:
  `8` (the reference's temperature, the square root of the head dimension 64), `1/64` (the kernel's
  single scale, the reciprocal of the temperature squared — a power of two, so the word is exact) and `-∞`
  (the value a row maximum starts from).
-/
import Idealize.ShloMosaic.PureOps.Ideal

noncomputable section

namespace Cert.Attn.Literals

open Idealize.ShloMosaic

/-- `8.0` denotes the real `8`. -/
theorem ofBits_eight : Ideal.ofBits .f32 0x41000000#32 = ((8 : ℝ) : EReal) := by
  simp [Ideal.ofBits, Ideal.ieee, -EReal.coe_mul]; norm_num

/-- `0.015625` denotes the real `1/64`. -/
theorem ofBits_inv64 : Ideal.ofBits .f32 0x3C800000#32 = ((1 / 64 : ℝ) : EReal) := by
  simp [Ideal.ofBits, Ideal.ieee, -EReal.coe_mul]; norm_num

/-- The word of negative infinity denotes `⊥`. -/
theorem ofBits_negInf : Ideal.ofBits .f32 0xFF800000#32 = (⊥ : EReal) := by
  simp [Ideal.ofBits, Ideal.ieee]

end Cert.Attn.Literals

end
-- ==== Proof.Reassociate.lean ====
/-
  The factored logits are the logits, when every entry is a real number.

  With real entries both rows are one triple sum over the key row l and the two head coordinates d, e:
      (1/64) · ∑ l, ∑ d, ∑ e, q[r,d] · k[l,d] · q[l,e] · pos[p,e].
  The factored form reaches it by distributing the products into the sums; the logits reach it because dividing by 8
  is multiplying by 1/8, and (1/8) · (1/8) = 1/64. The order of a finite triple sum of reals does not matter. The
  passage from extended reals to reals is exact on real entries: a finite sum or a product of real numbers, taken in the
  extended reals, is the real sum or product.
-/
import proofs.«174084_j34849364639933_2_alg».proof.Proof.MixedAttention
import proofs.«174084_j34849364639933_2_alg».proof.Proof.Literals

noncomputable section

namespace Cert.Attn

open Idealize.ShloMosaic Idealize.ShloMosaic.ValueIdx

/-- A finite sum of real numbers, taken in the extended reals, is the real sum. -/
theorem coe_sum_real {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The identity over the reals, for any finite sets of key rows `L` and head coordinates `D`: both sides are
    (1/64) times the triple sum of `qr d · kk l d · ql l e · pp e`. -/
theorem real_law {L D : Type} [Fintype L] [Fintype D] (qr : D → ℝ) (kk : L → D → ℝ) (ql : L → D → ℝ) (pp : D → ℝ) :
    ∑ e, (∑ d, qr d * ((∑ l, kk l d * ql l e) * (1 / 64))) * pp e
      = ∑ l, ((∑ d, qr d * kk l d) * (1 / 8)) * ((∑ e, ql l e * pp e) * (1 / 8)) := by
  -- the left side, with every product distributed into the sums
  have lhs : ∑ e, (∑ d, qr d * ((∑ l, kk l d * ql l e) * (1 / 64))) * pp e
      = ∑ e, ∑ d, ∑ l, qr d * kk l d * ql l e * pp e * (1 / 64) := by
    refine Finset.sum_congr rfl fun e _ => ?_
    rw [Finset.sum_mul]
    refine Finset.sum_congr rfl fun d _ => ?_
    calc qr d * ((∑ l, kk l d * ql l e) * (1 / 64)) * pp e
        = (∑ l, kk l d * ql l e) * (qr d * pp e * (1 / 64)) := by ring
      _ = ∑ l, qr d * kk l d * ql l e * pp e * (1 / 64) := by
          rw [Finset.sum_mul]
          refine Finset.sum_congr rfl fun l _ => ?_
          ring
  -- the right side likewise: the two scales 1/8 multiply to 1/64, and a product of two sums is the double sum
  have rhs : ∑ l, ((∑ d, qr d * kk l d) * (1 / 8)) * ((∑ e, ql l e * pp e) * (1 / 8))
      = ∑ l, ∑ d, ∑ e, qr d * kk l d * ql l e * pp e * (1 / 64) := by
    refine Finset.sum_congr rfl fun l _ => ?_
    calc ((∑ d, qr d * kk l d) * (1 / 8)) * ((∑ e, ql l e * pp e) * (1 / 8))
        = ((∑ d, qr d * kk l d) * (∑ e, ql l e * pp e)) * (1 / 64) := by ring
      _ = (∑ d, ∑ e, (qr d * kk l d) * (ql l e * pp e)) * (1 / 64) := by rw [Finset.sum_mul_sum]
      _ = ∑ d, ∑ e, qr d * kk l d * ql l e * pp e * (1 / 64) := by
          rw [Finset.sum_mul]
          refine Finset.sum_congr rfl fun d _ => ?_
          rw [Finset.sum_mul]
          refine Finset.sum_congr rfl fun e _ => ?_
          ring
  rw [lhs, rhs]
  -- the triple sum in the order e, d, l is the triple sum in the order l, d, e
  calc ∑ e, ∑ d, ∑ l, qr d * kk l d * ql l e * pp e * (1 / 64)
      = ∑ d, ∑ e, ∑ l, qr d * kk l d * ql l e * pp e * (1 / 64) := Finset.sum_comm
    _ = ∑ d, ∑ l, ∑ e, qr d * kk l d * ql l e * pp e * (1 / 64) :=
        Finset.sum_congr rfl fun d _ => Finset.sum_comm
    _ = ∑ l, ∑ d, ∑ e, qr d * kk l d * ql l e * pp e * (1 / 64) := Finset.sum_comm

/-- With every entry of `q`, `k` and `pos` real, the factored row is the row of logits. -/
theorem factored_eq_logits (q k pos : Arr) (hq : ∀ i, ∃ x : ℝ, q i = (x : EReal)) (hk : ∀ i, ∃ x : ℝ, k i = (x : EReal))
    (hpos : ∀ i, ∃ x : ℝ, pos i = (x : EReal)) (b : Fin 16) (r : Fin 2048) :
    factored q k pos b r = logits q k pos b r := by
  choose q' hq' using hq
  choose k' hk' using hk
  choose pos' hpos' using hpos
  funext p
  unfold factored logits
  -- both sides become the coercion of a real expression: 8 and 1/64 are real, division by 8 is the product with 1/8
  simp only [hq', hk', hpos', eight, inv64, Literals.ofBits_eight, Literals.ofBits_inv64,
    Ideal.div_coe (by norm_num : (8 : ℝ) ≠ 0), ← EReal.coe_mul, coe_sum_real]
  exact congrArg _ (real_law (fun d => q' (ix3 b r d)) (fun l d => k' (ix3 b l d)) (fun l e => q' (ix3 b l e))
    (fun e => pos' (ix3 b p e)))

end Cert.Attn

end
-- ==== Proof.FiniteInputs.lean ====
/-
  Every input entry is a real number.

  The precondition tests each of the four input arrays with "|x| is ordered-less-than plus infinity" at every entry,
  takes the conjunction over all entries (a reduction by AND over the three axes, started at true), and takes the
  conjunction of the four results. Read at the ideal instance, where an entry is an extended real, |x| is
  max x (-x), and the word 0x7F800000 denotes the top element, the test at one entry says max x (-x) < top,
  which excludes both infinities: the entry is a real number. This file reads the precondition back in that way.
-/
import proofs.«174084_j34849364639933_2_alg».proof.Pre_finite_inputs
import Idealize.ShloMosaic.PureOps.Ideal
import Idealize.ShloMosaic.Lib.ReduceAll
import Idealize.ShloMosaic.Lib.ValueIdx

noncomputable section

open Idealize.ShloMosaic

namespace Cert.FiniteInputs

open Cert.Pre_finite_inputs

/-- The rank-0 shape has exactly one index (the empty tuple of coordinates). -/
instance : Subsingleton S_.Idx := ⟨fun _ _ => funext fun d => d.elim0⟩

/-- The single-precision word 0x7F800000 (sign 0, exponent all ones, fraction 0) denotes plus infinity. -/
theorem ofBits_inf : Ideal.ofBits .f32 0x7F800000#32 = (⊤ : EReal) := by
  simp [Ideal.ofBits, Ideal.ieee]

/-- One entry: if the comparison "max x (-x) < plus infinity" holds (its bit is 1), then x is neither infinity,
    hence a real number. At bottom, max x (-x) is top; at top it is top; neither is below top. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

variable [Facts]

/-- The test the precondition applies to one array: |x| < plus infinity at every entry, all entries conjoined. -/
def allFinite (a : FVec Ideal S16x2048x64 .f32) : BitVec 1 :=
  Host.reduce IntOp.andi
    (cmpf .olt (Host.absf a)
      (broadcastInDim S16x2048x64 ![] Facts.bcast_S_S16x2048x64 (constant (F := Ideal) S_ .f32 0x7F800000#32)))
    (constantI S_ 1 1#1) Facts.reducesTo_S16x2048x64_S_d0_1_2 Facts.h_S_ ValueIdx.ix0

/-- One array: if the conjunction over all entries is true, every entry passed its test, so every entry is real. -/
theorem real_of_allFinite (a : FVec Ideal S16x2048x64 .f32) (h : allFinite a = 1#1) :
    ∀ i, ∃ r : ℝ, a i = (r : EReal) := by
  intro i
  have e := Host.reduce_andi_all _ _ _ _ _ h i
  exact real_of_abs_lt_inf (a i) e

/-- The precondition, read back: each of the four arrays has only real entries. -/
theorem real_entries (a0 a1 a2 a3 : FVec Ideal S16x2048x64 .f32)
    (h : fn (F := Ideal) a0 a1 a2 a3 = fun _ => 1#1) :
    (∀ i, ∃ r : ℝ, a0 i = (r : EReal)) ∧ (∀ i, ∃ r : ℝ, a1 i = (r : EReal)) ∧
      (∀ i, ∃ r : ℝ, a2 i = (r : EReal)) ∧ (∀ i, ∃ r : ℝ, a3 i = (r : EReal)) := by
  -- the function's one output word is the conjunction of the four arrays' tests
  have h0 : IntOp.andi (IntOp.andi (IntOp.andi (allFinite a0) (allFinite a1)) (allFinite a2)) (allFinite a3) = 1#1 :=
    congrFun h ValueIdx.ix0
  obtain ⟨h012, h3⟩ := IntOp.andi_eq_one.1 h0
  obtain ⟨h01, h2⟩ := IntOp.andi_eq_one.1 h012
  obtain ⟨h0', h1⟩ := IntOp.andi_eq_one.1 h01
  exact ⟨real_of_allFinite a0 h0', real_of_allFinite a1 h1, real_of_allFinite a2 h2, real_of_allFinite a3 h3⟩

end Cert.FiniteInputs

end
-- ==== Proof.lean ====
/-
  Attention with positional mixing, computed two ways, is one function of finite inputs.

  The reference forms two 2048 × 2048 score matrices per batch, `q kᵀ / 8` and `q posᵀ / 8`, multiplies them, takes
  the softmax of every row (the row maximum subtracted first) and multiplies the weights by `v`; it returns the
  product and the weights. The kernel uses that the product of the two score matrices is `q (kᵀ q) posᵀ / 64`: the
  host forms the 64 × 64 matrix `kᵀ q` of each batch once and scales it by 1/64, and each of the 16 × 4 grid points
  multiplies its 512 query rows by it and by `posᵀ`, takes the same row softmax, writes the weights tile, reads it back
  and multiplies it by `v`. Changes of float format are the identity at the extended reals, a matrix product is the
  plain sum of products, and 1/64 and 8 are exact, so the two programs differ only in the ORDER of one triple sum
  and in where the scale sits. Those may be moved when every entry is a real number, which the precondition gives;
  everything after the logits is literally the same function on both sides.

  So: the kernel's two result arrays end at the weights computed from the factored logits and at their product with
  `v` (the blocks the grid points write back fill the arrays); the reference's two results are the weights computed from
  the logits and their product with `v`; and the factored logits are the logits at finite inputs.
-/
import proofs.«174084_j34849364639933_2_alg».proof.Defs
import proofs.«174084_j34849364639933_2_alg».proof.Proof.Gen.Kernel
import proofs.«174084_j34849364639933_2_alg».proof.Proof.Gen.Kernel.Skeleton
import proofs.«174084_j34849364639933_2_alg».proof.Proof.Gen.Kernel.Launch
import proofs.«174084_j34849364639933_2_alg».proof.Proof.Gen.Kernel.Points
import proofs.«174084_j34849364639933_2_alg».proof.Proof.Gen.Kernel.Frame
import proofs.«174084_j34849364639933_2_alg».proof.Proof.Gen.KernelIdeal
import proofs.«174084_j34849364639933_2_alg».proof.Proof.Gen.KernelIdeal.Skeleton
import proofs.«174084_j34849364639933_2_alg».proof.Proof.Gen.KernelIdeal.Launch
import proofs.«174084_j34849364639933_2_alg».proof.Proof.Gen.KernelIdeal.Points
import proofs.«174084_j34849364639933_2_alg».proof.Proof.Gen.KernelIdeal.Frame
import proofs.«174084_j34849364639933_2_alg».proof.Proof.Gen.ReferenceIdeal
import proofs.«174084_j34849364639933_2_alg».proof.Proof.Gen.Pre_finite_inputs
import proofs.«174084_j34849364639933_2_alg».proof.Proof.Gen.KernelIdeal.Value
import proofs.«174084_j34849364639933_2_alg».proof.Proof.Gen.ReferenceIdeal.Run
import proofs.«174084_j34849364639933_2_alg».proof.Proof.Gen.ReferenceIdeal.Read
import proofs.«174084_j34849364639933_2_alg».proof.Proof.Arrays
import proofs.«174084_j34849364639933_2_alg».proof.Proof.ReferenceMeaning
import proofs.«174084_j34849364639933_2_alg».proof.Proof.Reassociate
import proofs.«174084_j34849364639933_2_alg».proof.Proof.FiniteInputs
import Idealize.ShloMosaic.Adequacy
import Idealize.ShloMosaic.Init

noncomputable section

namespace Cert.Proof

open Idealize.ShloMosaic Idealize.ShloMosaic.TcCoe Idealize.SL.Sem

/-- With real entries the weights computed from the factored logits are the weights: the two rows of logits agree,
    and the softmax is applied to equal rows. -/
theorem weightsF_eq_weights (q k pos : Cert.Attn.Arr) (hq : ∀ i, ∃ x : ℝ, q i = (x : EReal))
    (hk : ∀ i, ∃ x : ℝ, k i = (x : EReal)) (hpos : ∀ i, ∃ x : ℝ, pos i = (x : EReal)) :
    Cert.Attn.weightsF q k pos = Cert.Attn.weights q k pos := by
  funext i
  obtain ⟨b, r, p, rfl⟩ : ∃ (b : Fin 16) (r p : Fin 2048), i = ValueIdx.ix3 b r p := ⟨i 0, i 1, i 2, ValueIdx.eq_ix3 i⟩
  show Cert.Attn.soft (Cert.Attn.factored q k pos b r) p = Cert.Attn.soft (Cert.Attn.logits q k pos b r) p
  rw [Cert.Attn.factored_eq_logits q k pos hq hk hpos b r]

/-- The word-level kernel runs to completion and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- So does the reference: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Reading the kernel at the extended reals rewrote no operation. -/
theorem preserves : Cert.preserves_Kernel_KernelIdeal := trivial

/-- From memories agreeing on finite arguments both programs end with the same two arrays: the product of the weights
    with `v`, and the weights. -/
theorem algebraic : Cert.algebraic_KernelIdeal_ReferenceIdeal := by
  intro m ρ m' ρ' hpre hagree
  refine ⟨fun c => Cert.Attn.mix (Cert.Attn.weights (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3))) (m ((c.tc : Thread Cert.KernelIdeal.nD Cert.KernelIdeal.τ).loc Cert.KernelIdeal.main_arg2)),
    fun c => Cert.Attn.weights (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)), ?_, ?_⟩
  · refine (θ_run Cert.KernelIdeal.defs _ _).mono (fun r h c => ?_) (Cert.KernelIdeal.Arrays.run m ρ)
    obtain ⟨hq, hk, -, hpos⟩ := Cert.FiniteInputs.real_entries _ _ _ _ (hpre c)
    have hw := weightsF_eq_weights _ _ _ hq hk hpos
    obtain ⟨h0, h1, hrest⟩ := h c
    exact ⟨h0.trans (congrArg (fun w => Cert.Attn.mix w _) hw), h1.trans hw, hrest⟩
  · refine (θ_run Cert.ReferenceIdeal.defs _ _).mono (fun r h c => ?_) (Cert.ReferenceIdeal.Value.run (F := Ideal) m' ρ')
    obtain ⟨h18, h17, hrest⟩ := h c
    obtain ⟨a0, a1, a2, a3⟩ := hagree c
    refine ⟨h18.trans ?_, h17.trans ?_, hrest⟩
    · rw [Cert.ReferenceIdeal.Read.val_main_v18_eq, Cert.ReferenceIdeal.Meaning.out_eq, a0, a1, a2, a3]
    · rw [Cert.ReferenceIdeal.Read.val_main_v17_eq, Cert.ReferenceIdeal.Meaning.weights_eq, a0, a1, a3]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
